-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x20 : Shape := ⟨2, ![32768, 20]⟩
abbrev S32768x1 : Shape := ⟨2, ![32768, 1]⟩
abbrev S20 : Shape := ⟨1, ![20]⟩
abbrev S1024x20 : Shape := ⟨2, ![1024, 20]⟩
abbrev S1024 : Shape := ⟨1, ![1024]⟩
abbrev S512x1024 : Shape := ⟨2, ![512, 1024]⟩
abbrev S512 : Shape := ⟨1, ![512]⟩
abbrev S2x512 : Shape := ⟨2, ![2, 512]⟩
abbrev S2 : Shape := ⟨1, ![2]⟩
abbrev S_ : Shape := ⟨0, ![]⟩

class Facts : Prop where
  bcast_S_S32768x20 : S_.BroadcastsInDim S32768x20 (![] : Fin 0 → Fin S32768x20.rank)
  reducesTo_S32768x20_S_d0_1 : S32768x20.ReducesTo [0, 1] S_
  h_S_ : 0 < S_.numel
  bcast_S_S20 : S_.BroadcastsInDim S20 (![] : Fin 0 → Fin S20.rank)
  reducesTo_S20_S_d0 : S20.ReducesTo [0] S_
  bcast_S_S1024x20 : S_.BroadcastsInDim S1024x20 (![] : Fin 0 → Fin S1024x20.rank)
  reducesTo_S1024x20_S_d0_1 : S1024x20.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S2x512 : S_.BroadcastsInDim S2x512 (![] : Fin 0 → Fin S2x512.rank)
  reducesTo_S2x512_S_d0_1 : S2x512.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S2x512 .f32) (main_arg13 : FVec F S2 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S2x512 .f32 := Host.absf main_arg12
  let main_cst_20 : FVec F S_ .f32 := constant S_ .f32 0x7F800000#32
  let main_v55 : FVec F S2x512 .f32 := broadcastInDim S2x512 ![] bcast_S_S2x512 main_cst_20
  let main_v56 : IVec S2x512 1 := cmpf .olt main_v54 main_v55
  let main_c_21 : IVec S_ 1 := constantI S_ 1 1#1
  let main_v57 : IVec S_ 1 := (fun x v => Host.reduce IntOp.andi x v reducesTo_S2x512_S_d0_1 h_S_) main_v56 main_c_21
  let main_v58 : IVec S_ 1 := andi main_v53 main_v57
  let main_v59 : FVec F S2 .f32 := Host.absf main_arg13
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg8 : FVec F S2x512 .f32) (main_arg9 : FVec F S2 .f32) (main_arg10 : FVec F S512x1024 .f32) (main_arg11 : FVec F S512 .f32) (main_arg12 : FVec F S2x512 .f32) (main_arg13 : FVec F S2 .f32) (main_v33 : IVec S_ 1) : IVec S_ 1 :=
  let main_v34 : FVec F S2x512 .f32 := Host.absf main_arg8
  let main_cst_12 : FVec F S_ .f32 := constant S_ .f32 0x7F800000#32
  let main_v35 : FVec F S2x512 .f32 := broadcastInDim S2x512 ![] bcast_S_S2x512 main_cst_12
  let main_v36 : IVec S2x512 1 := cmpf .olt main_v34 main_v35
  let main_c_13 : IVec S_ 1 := constantI S_ 1 1#1
  let main_v37 : IVec S_ 1 := (fun x v => Host.reduce IntOp.andi x v reducesTo_S2x512_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S512x1024 .f32 := Host.absf main_arg10
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg12 main_arg13 main_v48 main_v49 main_v50

def fn_part1 {F : FTy → Type} [FloatOps F] (main_arg5 : FVec F S1024 .f32) (main_arg6 : FVec F S512x1024 .f32) (main_arg7 : FVec F S512 .f32) (main_arg8 : FVec F S2x512 .f32) (main_arg9 : FVec F S2 .f32) (main_arg10 : FVec F S512x1024 .f32) (main_arg11 : FVec F S512 .f32) (main_arg12 : FVec F S2x512 .f32) (main_arg13 : FVec F S2 .f32) (main_v13 : IVec S_ 1) (main_v16 : IVec S1024x20 1) : IVec S_ 1 :=
  let main_c_5 : IVec S_ 1 := constantI S_ 1 1#1
  let main_v17 : IVec S_ 1 := (fun x v => Host.reduce IntOp.andi x v reducesTo_S1024x20_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S512x1024 .f32 := Host.absf main_arg6
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S32768x20 .f32) (main_arg1 : IVec S32768x1 32) (main_arg2 : FVec F S20 .f32) (main_arg3 : FVec F S20 .f32) (main_arg4 : FVec F S1024x20 .f32) (main_arg5 : FVec F S1024 .f32) (main_arg6 : FVec F S512x1024 .f32) (main_arg7 : FVec F S512 .f32) (main_arg8 : FVec F S2x512 .f32) (main_arg9 : FVec F S2 .f32) (main_arg10 : FVec F S512x1024 .f32) (main_arg11 : FVec F S512 .f32) (main_arg12 : FVec F S2x512 .f32) (main_arg13 : FVec F S2 .f32) : IVec S_ 1 :=
  let main_v0 : FVec F S32768x20 .f32 := Host.absf main_arg0
  let main_cst : FVec F S_ .f32 := constant S_ .f32 0x7F800000#32
  let main_v1 : FVec F S32768x20 .f32 := broadcastInDim S32768x20 ![] bcast_S_S32768x20 main_cst
  let main_v2 : IVec S32768x20 1 := cmpf .olt main_v0 main_v1
  let main_c : IVec S_ 1 := constantI S_ 1 1#1
  let main_v3 : IVec S_ 1 := (fun x v => Host.reduce IntOp.andi x v reducesTo_S32768x20_S_d0_1 h_S_) main_v2 main_c
  let main_v4 : FVec F S20 .f32 := Host.absf main_arg2
  let main_cst_0 : FVec F S_ .f32 := constant S_ .f32 0x7F800000#32
  let main_v5 : FVec F S20 .f32 := broadcastInDim S20 ![] bcast_S_S20 main_cst_0
  let main_v6 : IVec S20 1 := cmpf .olt main_v4 main_v5
  let main_c_1 : IVec S_ 1 := constantI S_ 1 1#1
  let main_v7 : IVec S_ 1 := (fun x v => Host.reduce IntOp.andi x v reducesTo_S20_S_d0 h_S_) main_v6 main_c_1
  let main_v8 : IVec S_ 1 := andi main_v3 main_v7
  let main_v9 : FVec F S20 .f32 := Host.absf main_arg3
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S1024x20 .f32 := Host.absf main_arg4
  let main_cst_4 : FVec F S_ .f32 := constant S_ .f32 0x7F800000#32
  let main_v15 : FVec F S1024x20 .f32 := broadcastInDim S1024x20 ![] bcast_S_S1024x20 main_cst_4
  let main_v16 : IVec S1024x20 1 := cmpf .olt main_v14 main_v15
  fn_part1 (F := F) main_arg5 main_arg6 main_arg7 main_arg8 main_arg9 main_arg10 main_arg11 main_arg12 main_arg13 main_v13 main_v16
-- ==== Kernel.lean ====
abbrev S32768x20 : Shape := ⟨2, ![32768, 20]⟩
abbrev S32768x1 : Shape := ⟨2, ![32768, 1]⟩
abbrev S20 : Shape := ⟨1, ![20]⟩
abbrev S1024x20 : Shape := ⟨2, ![1024, 20]⟩
abbrev S1024 : Shape := ⟨1, ![1024]⟩
abbrev S512x1024 : Shape := ⟨2, ![512, 1024]⟩
abbrev S512 : Shape := ⟨1, ![512]⟩
abbrev S2x512 : Shape := ⟨2, ![2, 512]⟩
abbrev S2 : Shape := ⟨1, ![2]⟩
abbrev S1x20 : Shape := ⟨2, ![1, 20]⟩
abbrev S1x1024 : Shape := ⟨2, ![1, 1024]⟩
abbrev S1x512 : Shape := ⟨2, ![1, 512]⟩
abbrev S1x2 : Shape := ⟨2, ![1, 2]⟩
abbrev S32768x14 : Shape := ⟨2, ![32768, 14]⟩
abbrev S2048x20 : Shape := ⟨2, ![2048, 20]⟩
abbrev S2048x14 : Shape := ⟨2, ![2048, 14]⟩
abbrev S20x1024 : Shape := ⟨2, ![20, 1024]⟩
abbrev S2048x1024 : Shape := ⟨2, ![2048, 1024]⟩
abbrev S1024x512 : Shape := ⟨2, ![1024, 512]⟩
abbrev S2048x512 : Shape := ⟨2, ![2048, 512]⟩
abbrev S512x2 : Shape := ⟨2, ![512, 2]⟩
abbrev S2048x2 : Shape := ⟨2, ![2048, 2]⟩
abbrev S20x2048 : Shape := ⟨2, ![20, 2048]⟩
abbrev S2x2048 : Shape := ⟨2, ![2, 2048]⟩
abbrev S1x2048 : Shape := ⟨2, ![1, 2048]⟩
abbrev S8x2048 : Shape := ⟨2, ![8, 2048]⟩
abbrev S4x2048 : Shape := ⟨2, ![4, 2048]⟩
abbrev S2048x8 : Shape := ⟨2, ![2048, 8]⟩
abbrev S2048x4 : Shape := ⟨2, ![2048, 4]⟩

abbrev nBuf : Space → Nat
  | .hbm => 25
  | .vmem => 16
  | .smem => 0
  | _ => 0

abbrev bufTy : (tb : Table) → Fin (tcTables nBuf tb) → BufTy
  | .hbm, ⟨0, _⟩ => ⟨S32768x20, .f32⟩
  | .hbm, ⟨1, _⟩ => ⟨S32768x1, .i32⟩
  | .hbm, ⟨2, _⟩ => ⟨S20, .f32⟩
  | .hbm, ⟨3, _⟩ => ⟨S20, .f32⟩
  | .hbm, ⟨4, _⟩ => ⟨S1024x20, .f32⟩
  | .hbm, ⟨5, _⟩ => ⟨S1024, .f32⟩
  | .hbm, ⟨6, _⟩ => ⟨S512x1024, .f32⟩
  | .hbm, ⟨7, _⟩ => ⟨S512, .f32⟩
  | .hbm, ⟨8, _⟩ => ⟨S2x512, .f32⟩
  | .hbm, ⟨9, _⟩ => ⟨S2, .f32⟩
  | .hbm, ⟨10, _⟩ => ⟨S512x1024, .f32⟩
  | .hbm, ⟨11, _⟩ => ⟨S512, .f32⟩
  | .hbm, ⟨12, _⟩ => ⟨S2x512, .f32⟩
  | .hbm, ⟨13, _⟩ => ⟨S2, .f32⟩
  | .hbm, ⟨14, _⟩ => ⟨S1x20, .f32⟩
  | .hbm, ⟨15, _⟩ => ⟨S1x20, .f32⟩
  | .hbm, ⟨16, _⟩ => ⟨S1x1024, .f32⟩
  | .hbm, ⟨17, _⟩ => ⟨S1x512, .f32⟩
  | .hbm, ⟨18, _⟩ => ⟨S1x2, .f32⟩
  | .hbm, ⟨19, _⟩ => ⟨S1x512, .f32⟩
  | .hbm, ⟨20, _⟩ => ⟨S1x2, .f32⟩
  | .hbm, ⟨21, _⟩ => ⟨S1024x20, .bf16⟩
  | .hbm, ⟨22, _⟩ => ⟨S512x1024, .bf16⟩
  | .hbm, ⟨23, _⟩ => ⟨S512x1024, .bf16⟩
  | .hbm, ⟨24, _⟩ => ⟨S32768x14, .f32⟩
  | .local _ .vmem, ⟨0, _⟩ => ⟨S2048x20, .f32⟩
  | .local _ .vmem, ⟨1, _⟩ => ⟨S2048x20, .f32⟩
  | .local _ .vmem, ⟨2, _⟩ => ⟨S1x20, .f32⟩
  | .local _ .vmem, ⟨3, _⟩ => ⟨S1x20, .f32⟩
  | .local _ .vmem, ⟨4, _⟩ => ⟨S1024x20, .bf16⟩
  | .local _ .vmem, ⟨5, _⟩ => ⟨S1x1024, .f32⟩
  | .local _ .vmem, ⟨6, _⟩ => ⟨S512x1024, .bf16⟩
  | .local _ .vmem, ⟨7, _⟩ => ⟨S1x512, .f32⟩
  | .local _ .vmem, ⟨8, _⟩ => ⟨S2x512, .f32⟩
  | .local _ .vmem, ⟨9, _⟩ => ⟨S1x2, .f32⟩
  | .local _ .vmem, ⟨10, _⟩ => ⟨S512x1024, .bf16⟩
  | .local _ .vmem, ⟨11, _⟩ => ⟨S1x512, .f32⟩
  | .local _ .vmem, ⟨12, _⟩ => ⟨S2x512, .f32⟩
  | .local _ .vmem, ⟨13, _⟩ => ⟨S1x2, .f32⟩
  | .local _ .vmem, ⟨14, _⟩ => ⟨S2048x14, .f32⟩
  | .local _ .vmem, ⟨15, _⟩ => ⟨S2048x14, .f32⟩
  | _, _ => ⟨S32768x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x20 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x14 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S20_S1x20 : S20.ShapeCasts S1x20
  shapeCasts_S1024_S1x1024 : S1024.ShapeCasts S1x1024
  shapeCasts_S512_S1x512 : S512.ShapeCasts S1x512
  shapeCasts_S2_S1x2 : S2.ShapeCasts S1x2
  bitsLt_bf16_f32 : FTy.bits .bf16 < FTy.bits .f32
  inb_S2048x20_S2048x20_0_0 : ∀ a, (![0, 0] : Fin 2 → Nat) a + S2048x20.size a ≤ S2048x20.size a
  h_S2048x20 : 0 < S2048x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S2048x20 : S1x20.Broadcasts S2048x20
  inb_S1024x20_S1024x20_0_0 : ∀ a, (![0, 0] : Fin 2 → Nat) a + S1024x20.size a ≤ S1024x20.size a
  h_S1024x20 : 0 < S1024x20.numel
  shapeCasts_S1024x20_S1024x20 : S1024x20.ShapeCasts S1024x20
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1024x20_p1_0_S20x1024 : S1024x20.Transposes [1, 0] S20x1024
  broadcasts_S1x1024_S2048x1024 : S1x1024.Broadcasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  transposes_S512x1024_p1_0_S1024x512 : S512x1024.Transposes [1, 0] S1024x512
  broadcasts_S1x512_S2048x512 : S1x512.Broadcasts S2048x512
  inb_S2x512_S2x512_0_0 : ∀ a, (![0, 0] : Fin 2 → Nat) a + S2x512.size a ≤ S2x512.size a
  h_S2x512 : 0 < S2x512.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  transposes_S2x512_p1_0_S512x2 : S2x512.Transposes [1, 0] S512x2
  broadcasts_S1x2_S2048x2 : S1x2.Broadcasts S2048x2
  transposes_S2048x20_p1_0_S20x2048 : S2048x20.Transposes [1, 0] S20x2048
  transposes_S2048x2_p1_0_S2x2048 : S2048x2.Transposes [1, 0] S2x2048
  slices_S2x2048_o0_0_S1x2048 : S2x2048.Slices ![0, 0] S1x2048
  slices_S2x2048_o1_0_S1x2048 : S2x2048.Slices ![1, 0] S1x2048
  slices_S20x2048_o2_0_S1x2048 : S20x2048.Slices ![2, 0] S1x2048
  slices_S20x2048_o3_0_S1x2048 : S20x2048.Slices ![3, 0] S1x2048
  slices_S20x2048_o4_0_S1x2048 : S20x2048.Slices ![4, 0] S1x2048
  slices_S20x2048_o5_0_S1x2048 : S20x2048.Slices ![5, 0] S1x2048
  slices_S20x2048_o6_0_S1x2048 : S20x2048.Slices ![6, 0] S1x2048
  slices_S20x2048_o7_0_S1x2048 : S20x2048.Slices ![7, 0] S1x2048
  slices_S20x2048_o8_0_S1x2048 : S20x2048.Slices ![8, 0] S1x2048
  slices_S20x2048_o9_0_S1x2048 : S20x2048.Slices ![9, 0] S1x2048
  slices_S20x2048_o12_0_S1x2048 : S20x2048.Slices ![12, 0] S1x2048
  slices_S20x2048_o13_0_S1x2048 : S20x2048.Slices ![13, 0] S1x2048
  slices_S20x2048_o16_0_S1x2048 : S20x2048.Slices ![16, 0] S1x2048
  slices_S20x2048_o17_0_S1x2048 : S20x2048.Slices ![17, 0] S1x2048
  concatenates_S1x2048_S1x2048_S1x2048_S1x2048_S1x2048_S1x2048_S1x2048_S1x2048_S8x2048_d0 : Shape.Concatenates [S1x2048, S1x2048, S1x2048, S1x2048, S1x2048, S1x2048, S1x2048, S1x2048] S8x2048 0
  concatenates_S1x2048_S1x2048_S1x2048_S1x2048_S4x2048_d0 : Shape.Concatenates [S1x2048, S1x2048, S1x2048, S1x2048] S4x2048 0
  transposes_S8x2048_p1_0_S2048x8 : S8x2048.Transposes [1, 0] S2048x8
  transposes_S4x2048_p1_0_S2048x4 : S4x2048.Transposes [1, 0] S2048x4
  concatenates_S2048x2_S2048x8_S2048x4_S2048x14_d1 : Shape.Concatenates [S2048x2, S2048x8, S2048x4] S2048x14 1
  inb_S2048x14_S2048x14_0_0 : ∀ a, (![0, 0] : Fin 2 → Nat) a + S2048x14.size a ≤ S2048x14.size a
  h_S2048x14 : 0 < S2048x14.numel
  dot_S2048x20_S20x1024_S2048x1024_1_0_0_1_n_n_wf : DotDims.WF S2048x20 S20x1024 S2048x1024 [1] [0] [0] [1] [] []
  dot_S2048x1024_S1024x512_S2048x512_1_0_0_1_n_n_wf : DotDims.WF S2048x1024 S1024x512 S2048x512 [1] [0] [0] [1] [] []
  dot_S2048x512_S512x2_S2048x2_1_0_0_1_n_n_wf : DotDims.WF S2048x512 S512x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x20.size a ≤ S32768x20.size a
  hwx0_0 : ∀ i : grid0.Coords, EltTy.bits .f32 = 32 ∨ (Rect.block (s := S32768x20) S2048x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x20.size a ≤ S1x20.size a
  hwx0_1 : ∀ i : grid0.Coords, EltTy.bits .f32 = 32 ∨ (Rect.block (s := S1x20) S1x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20.size a ≤ S1x20.size a
  hwx0_2 : ∀ i : grid0.Coords, EltTy.bits .f32 = 32 ∨ (Rect.block (s := S1x20) S1x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x20.size a ≤ S1024x20.size a
  hwx0_3 : ∀ i : grid0.Coords, EltTy.bits .bf16 = 32 ∨ (Rect.block (s := S1024x20) S1024x20.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .bf16 = 32 ∨ (Rect.block (s := S512x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x512.size a ≤ S2x512.size a
  hwx0_7 : ∀ i : grid0.Coords, EltTy.bits .f32 = 32 ∨ (Rect.block (s := S2x512) S2x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S512x1024.size a
  hwx0_9 : ∀ i : grid0.Coords, EltTy.bits .bf16 = 32 ∨ (Rect.block (s := S512x1024) S512x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2x512.size a ≤ S2x512.size a
  hwx0_11 : ∀ i : grid0.Coords, EltTy.bits .f32 = 32 ∨ (Rect.block (s := S2x512) S2x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2.size a ≤ S1x2.size a
  hwx0_12 : ∀ i : grid0.Coords, EltTy.bits .f32 = 32 ∨ (Rect.block (s := S1x2) S1x2.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x14.size a ≤ S32768x14.size a
  hwx0_13 : ∀ i : grid0.Coords, EltTy.bits .f32 = 32 ∨ (Rect.block (s := S32768x14) S2048x14.size (cc0_transform_13 i) (hinb0_13 i)).WholeWords (EltTy.packing .f32)

variable [Facts₀]

def dot_S2048x20_S20x1024_S2048x1024_1_0_0_1_n_n : DotDims S2048x20 S20x1024 S2048x1024 where
  lhsContracting := [1]
  rhsContracting := [0]
  lhsNonContracting := [0]
  rhsNonContracting := [1]
  lhsBatch := []
  rhsBatch := []
  wf := dot_S2048x20_S20x1024_S2048x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x2_S2048x2_1_0_0_1_n_n : DotDims S2048x512 S512x2 S2048x2 where
  lhsContracting := [1]
  rhsContracting := [0]
  lhsNonContracting := [0]
  rhsNonContracting := [1]
  lhsBatch := []
  rhsBatch := []
  wf := dot_S2048x512_S512x2_S2048x2_1_0_0_1_n_n_wf

abbrev win0_0 : Pipeline.Window sig grid0 :=
  Pipeline.Window.ofSpec (Memref.whole main_arg0) S2048x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S2x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S512x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S2x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S1x2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10) S2048x14.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S32768x20 : Shape := ⟨2, ![32768, 20]⟩
abbrev S32768x1 : Shape := ⟨2, ![32768, 1]⟩
abbrev S20 : Shape := ⟨1, ![20]⟩
abbrev S1024x20 : Shape := ⟨2, ![1024, 20]⟩
abbrev S1024 : Shape := ⟨1, ![1024]⟩
abbrev S512x1024 : Shape := ⟨2, ![512, 1024]⟩
abbrev S512 : Shape := ⟨1, ![512]⟩
abbrev S2x512 : Shape := ⟨2, ![2, 512]⟩
abbrev S2 : Shape := ⟨1, ![2]⟩
abbrev S1x20 : Shape := ⟨2, ![1, 20]⟩
abbrev S20x1024 : Shape := ⟨2, ![20, 1024]⟩
abbrev S32768x1024 : Shape := ⟨2, ![32768, 1024]⟩
abbrev S1x1024 : Shape := ⟨2, ![1, 1024]⟩
abbrev S_ : Shape := ⟨0, ![]⟩
abbrev S1024x512 : Shape := ⟨2, ![1024, 512]⟩
abbrev S32768x512 : Shape := ⟨2, ![32768, 512]⟩
abbrev S1x512 : Shape := ⟨2, ![1, 512]⟩
abbrev S512x2 : Shape := ⟨2, ![512, 2]⟩
abbrev S32768x2 : Shape := ⟨2, ![32768, 2]⟩
abbrev S1x2 : Shape := ⟨2, ![1, 2]⟩
abbrev S32768 : Shape := ⟨1, ![32768]⟩
abbrev S32768x12 : Shape := ⟨2, ![32768, 12]⟩
abbrev S32768x3x4 : Shape := ⟨3, ![32768, 3, 4]⟩
abbrev S32768x3x1 : Shape := ⟨3, ![32768, 3, 1]⟩
abbrev S32768x3 : Shape := ⟨2, ![32768, 3]⟩
abbrev S32768x3x2 : Shape := ⟨3, ![32768, 3, 2]⟩
abbrev S32768x1x2 : Shape := ⟨3, ![32768, 1, 2]⟩
abbrev S32768x4x2 : Shape := ⟨3, ![32768, 4, 2]⟩
abbrev S32768x4 : Shape := ⟨2, ![32768, 4]⟩
abbrev S32768x8 : Shape := ⟨2, ![32768, 8]⟩
abbrev S32768x14 : Shape := ⟨2, ![32768, 14]⟩

abbrev nBuf : Space → Nat
  | .hbm => 237
  | .vmem => 0
  | .smem => 0
  | _ => 0

abbrev hbmTy0_0 (i : Nat) : BufTy := match i % 128 with
  | 0 => ⟨S32768x20, .f32⟩
  | 1 => ⟨S32768x1, .i32⟩
  | 2 => ⟨S20, .f32⟩
  | 3 => ⟨S20, .f32⟩
  | 4 => ⟨S1024x20, .f32⟩
  | 5 => ⟨S1024, .f32⟩
  | 6 => ⟨S512x1024, .f32⟩
  | 7 => ⟨S512, .f32⟩
  | 8 => ⟨S2x512, .f32⟩
  | 9 => ⟨S2, .f32⟩
  | 10 => ⟨S512x1024, .f32⟩
  | 11 => ⟨S512, .f32⟩
  | 12 => ⟨S2x512, .f32⟩
  | 13 => ⟨S2, .f32⟩
  | 14 => ⟨S1x20, .f32⟩
  | 15 => ⟨S32768x20, .f32⟩
  | 16 => ⟨S32768x20, .f32⟩
  | 17 => ⟨S1x20, .f32⟩
  | 18 => ⟨S32768x20, .f32⟩
  | 19 => ⟨S32768x20, .f32⟩
  | 20 => ⟨S20x1024, .f32⟩
  | 21 => ⟨S32768x1024, .f32⟩
  | 22 => ⟨S1x1024, .f32⟩
  | 23 => ⟨S32768x1024, .f32⟩
  | 24 => ⟨S32768x1024, .f32⟩
  | 25 => ⟨S_, .f32⟩
  | 26 => ⟨S32768x1024, .f32⟩
  | 27 => ⟨S32768x1024, .f32⟩
  | 28 => ⟨S1024x512, .f32⟩
  | 29 => ⟨S32768x512, .f32⟩
  | 30 => ⟨S1x512, .f32⟩
  | 31 => ⟨S32768x512, .f32⟩
  | 32 => ⟨S32768x512, .f32⟩
  | 33 => ⟨S_, .f32⟩
  | 34 => ⟨S32768x512, .f32⟩
  | 35 => ⟨S32768x512, .f32⟩
  | 36 => ⟨S512x2, .f32⟩
  | 37 => ⟨S32768x2, .f32⟩
  | 38 => ⟨S1x2, .f32⟩
  | 39 => ⟨S32768x2, .f32⟩
  | 40 => ⟨S32768x2, .f32⟩
  | 41 => ⟨S1024x512, .f32⟩
  | 42 => ⟨S32768x512, .f32⟩
  | 43 => ⟨S1x512, .f32⟩
  | 44 => ⟨S32768x512, .f32⟩
  | 45 => ⟨S32768x512, .f32⟩
  | 46 => ⟨S_, .f32⟩
  | 47 => ⟨S32768x512, .f32⟩
  | 48 => ⟨S32768x512, .f32⟩
  | 49 => ⟨S512x2, .f32⟩
  | 50 => ⟨S32768x2, .f32⟩
  | 51 => ⟨S1x2, .f32⟩
  | 52 => ⟨S32768x2, .f32⟩
  | 53 => ⟨S32768x2, .f32⟩
  | 54 => ⟨S32768x2, .f32⟩
  | 55 => ⟨S32768x2, .f32⟩
  | 56 => ⟨S_, .f32⟩
  | 57 => ⟨S32768x2, .f32⟩
  | 58 => ⟨S32768x2, .f32⟩
  | 59 => ⟨S_, .f32⟩
  | 60 => ⟨S32768x2, .f32⟩
  | 61 => ⟨S32768x2, .f32⟩
  | 62 => ⟨S_, .f32⟩
  | 63 => ⟨S32768x2, .f32⟩
  | 64 => ⟨S32768x2, .f32⟩
  | 65 => ⟨S32768x1, .f32⟩
  | 66 => ⟨S32768, .f32⟩
  | 67 => ⟨S32768x1, .f32⟩
  | 68 => ⟨S32768, .f32⟩
  | 69 => ⟨S32768x1, .f32⟩
  | 70 => ⟨S32768, .f32⟩
  | 71 => ⟨S32768x1, .f32⟩
  | 72 => ⟨S32768, .f32⟩
  | 73 => ⟨S32768, .f32⟩
  | 74 => ⟨S32768, .f32⟩
  | 75 => ⟨S32768x1, .f32⟩
  | 76 => ⟨S32768, .f32⟩
  | 77 => ⟨S32768x1, .f32⟩
  | 78 => ⟨S32768, .f32⟩
  | 79 => ⟨S32768x1, .f32⟩
  | 80 => ⟨S32768, .f32⟩
  | 81 => ⟨S32768x1, .f32⟩
  | 82 => ⟨S32768, .f32⟩
  | 83 => ⟨S32768, .f32⟩
  | 84 => ⟨S32768, .f32⟩
  | 85 => ⟨S32768, .f32⟩
  | 86 => ⟨S32768, .f32⟩
  | 87 => ⟨S32768, .f32⟩
  | 88 => ⟨S32768, .f32⟩
  | 89 => ⟨S32768, .f32⟩
  | 90 => ⟨S_, .f32⟩
  | 91 => ⟨S32768, .f32⟩
  | 92 => ⟨S32768, .f32⟩
  | 93 => ⟨S_, .f32⟩
  | 94 => ⟨S32768, .f32⟩
  | 95 => ⟨S32768, .f32⟩
  | 96 => ⟨S32768, .f32⟩
  | 97 => ⟨S32768, .f32⟩
  | 98 => ⟨S32768, .f32⟩
  | 99 => ⟨S32768, .f32⟩
  | 100 => ⟨S_, .f32⟩
  | 101 => ⟨S32768, .f32⟩
  | 102 => ⟨S32768, .f32⟩
  | 103 => ⟨S32768, .f32⟩
  | 104 => ⟨S32768, .f32⟩
  | 105 => ⟨S32768, .f32⟩
  | 106 => ⟨S32768, .f32⟩
  | 107 => ⟨S32768, .f32⟩
  | 108 => ⟨S32768, .f32⟩
  | 109 => ⟨S32768, .f32⟩
  | 110 => ⟨S32768, .f32⟩
  | 111 => ⟨S_, .f32⟩
  | 112 => ⟨S32768, .f32⟩
  | 113 => ⟨S32768, .f32⟩
  | 114 => ⟨S32768, .f32⟩
  | 115 => ⟨S32768, .f32⟩
  | 116 => ⟨S32768, .f32⟩
  | 117 => ⟨S32768, .f32⟩
  | 118 => ⟨S32768, .f32⟩
  | 119 => ⟨S_, .f32⟩
  | 120 => ⟨S32768, .f32⟩
  | 121 => ⟨S32768, .f32⟩
  | 122 => ⟨S_, .f32⟩
  | 123 => ⟨S32768, .f32⟩
  | 124 => ⟨S32768, .f32⟩
  | 125 => ⟨S32768, .f32⟩
  | 126 => ⟨S32768, .f32⟩
  | 127 => ⟨S_, .f32⟩
  | _ => ⟨S32768x20, .f32⟩

abbrev hbmTy0_1 (i : Nat) : BufTy := match i % 128 with
  | 0 => ⟨S32768, .f32⟩
  | 1 => ⟨S32768, .f32⟩
  | 2 => ⟨S32768, .f32⟩
  | 3 => ⟨S32768, .f32⟩
  | 4 => ⟨S32768, .f32⟩
  | 5 => ⟨S_, .f32⟩
  | 6 => ⟨S32768, .f32⟩
  | 7 => ⟨S32768, .f32⟩
  | 8 => ⟨S32768, .f32⟩
  | 9 => ⟨S_, .f32⟩
  | 10 => ⟨S32768, .f32⟩
  | 11 => ⟨S32768, .f32⟩
  | 12 => ⟨S32768, .f32⟩
  | 13 => ⟨S32768, .f32⟩
  | 14 => ⟨S32768, .f32⟩
  | 15 => ⟨S32768, .f32⟩
  | 16 => ⟨S32768x1, .f32⟩
  | 17 => ⟨S32768x1, .f32⟩
  | 18 => ⟨S32768x2, .f32⟩
  | 19 => ⟨S32768, .f32⟩
  | 20 => ⟨S32768, .f32⟩
  | 21 => ⟨S32768, .f32⟩
  | 22 => ⟨S32768, .f32⟩
  | 23 => ⟨S32768, .f32⟩
  | 24 => ⟨S32768, .f32⟩
  | 25 => ⟨S32768x12, .f32⟩
  | 26 => ⟨S32768x3x4, .f32⟩
  | 27 => ⟨S32768x3x1, .f32⟩
  | 28 => ⟨S32768x3, .f32⟩
  | 29 => ⟨S32768x3, .f32⟩
  | 30 => ⟨S32768x3x1, .f32⟩
  | 31 => ⟨S32768x3, .f32⟩
  | 32 => ⟨S32768x3, .f32⟩
  | 33 => ⟨S32768x1, .f32⟩
  | 34 => ⟨S32768x1, .f32⟩
  | 35 => ⟨S32768x1, .f32⟩
  | 36 => ⟨S32768x3, .f32⟩
  | 37 => ⟨S32768x3, .f32⟩
  | 38 => ⟨S32768x3, .f32⟩
  | 39 => ⟨S_, .f32⟩
  | 40 => ⟨S32768x3, .f32⟩
  | 41 => ⟨S32768x3, .f32⟩
  | 42 => ⟨S_, .f32⟩
  | 43 => ⟨S32768x3, .f32⟩
  | 44 => ⟨S32768x3, .f32⟩
  | 45 => ⟨S32768x3, .f32⟩
  | 46 => ⟨S32768x3, .f32⟩
  | 47 => ⟨S32768x3, .f32⟩
  | 48 => ⟨S32768x3, .f32⟩
  | 49 => ⟨S_, .f32⟩
  | 50 => ⟨S32768x3, .f32⟩
  | 51 => ⟨S32768x3, .f32⟩
  | 52 => ⟨S32768x3, .f32⟩
  | 53 => ⟨S32768x3, .f32⟩
  | 54 => ⟨S32768x3, .f32⟩
  | 55 => ⟨S32768x3, .f32⟩
  | 56 => ⟨S32768x3, .f32⟩
  | 57 => ⟨S_, .f32⟩
  | 58 => ⟨S32768x1, .f32⟩
  | 59 => ⟨S32768x1, .f32⟩
  | 60 => ⟨S32768x1, .f32⟩
  | 61 => ⟨S_, .f32⟩
  | 62 => ⟨S32768x3, .f32⟩
  | 63 => ⟨S32768x3, .f32⟩
  | 64 => ⟨S32768x3, .f32⟩
  | 65 => ⟨S32768x3, .f32⟩
  | 66 => ⟨S32768x3, .f32⟩
  | 67 => ⟨S32768x3, .f32⟩
  | 68 => ⟨S_, .f32⟩
  | 69 => ⟨S32768x3, .f32⟩
  | 70 => ⟨S32768x3, .f32⟩
  | 71 => ⟨S32768x3, .f32⟩
  | 72 => ⟨S32768x3, .f32⟩
  | 73 => ⟨S32768x3, .f32⟩
  | 74 => ⟨S32768x3, .f32⟩
  | 75 => ⟨S32768x3, .f32⟩
  | 76 => ⟨S_, .f32⟩
  | 77 => ⟨S32768x3, .f32⟩
  | 78 => ⟨S32768x3, .f32⟩
  | 79 => ⟨S32768x3, .f32⟩
  | 80 => ⟨S32768x3, .f32⟩
  | 81 => ⟨S_, .f32⟩
  | 82 => ⟨S32768x3, .f32⟩
  | 83 => ⟨S32768x3, .f32⟩
  | 84 => ⟨S32768x3, .f32⟩
  | 85 => ⟨S32768x3, .f32⟩
  | 86 => ⟨S32768x3, .f32⟩
  | 87 => ⟨S32768x3, .f32⟩
  | 88 => ⟨S32768x3, .f32⟩
  | 89 => ⟨S32768x3x1, .f32⟩
  | 90 => ⟨S32768x3x1, .f32⟩
  | 91 => ⟨S32768x3x2, .f32⟩
  | 92 => ⟨S32768, .f32⟩
  | 93 => ⟨S32768x1, .f32⟩
  | 94 => ⟨S32768x3, .f32⟩
  | 95 => ⟨S32768x3, .f32⟩
  | 96 => ⟨S32768x3, .f32⟩
  | 97 => ⟨S32768x3, .f32⟩
  | 98 => ⟨S32768, .f32⟩
  | 99 => ⟨S32768x1, .f32⟩
  | 100 => ⟨S32768x3, .f32⟩
  | 101 => ⟨S32768x3, .f32⟩
  | 102 => ⟨S32768x3, .f32⟩
  | 103 => ⟨S32768x1x2, .f32⟩
  | 104 => ⟨S32768x4x2, .f32⟩
  | 105 => ⟨S32768x1, .f32⟩
  | 106 => ⟨S32768x4, .f32⟩
  | 107 => ⟨S32768x8, .f32⟩
  | 108 => ⟨S32768x14, .f32⟩
  | _ => ⟨S32768x20, .f32⟩

abbrev hbmTy (i : Nat) : BufTy := match i / 128 with
  | 0 => hbmTy0_0 i
  | 1 => hbmTy0_1 i
  | _ => ⟨S32768x20, .f32⟩

abbrev bufTy : (tb : Table) → Fin (tcTables nBuf tb) → BufTy
  | .hbm, ⟨i, _⟩ => hbmTy i
  | _, _ => ⟨S32768x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call0_cst : Ref sig .tc := ⟨.hbm, 25, rfl⟩
abbrev main_call0_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_cst : Ref sig .tc := ⟨.hbm, 33, rfl⟩
abbrev main_call1_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call2_cst : Ref sig .tc := ⟨.hbm, 46, rfl⟩
abbrev main_call2_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst : Ref sig .tc := ⟨.hbm, 56, rfl⟩
abbrev main_v36 : Ref sig .tc := ⟨.hbm, 57, rfl⟩
abbrev main_v37 : Ref sig .tc := ⟨.hbm, 58, rfl⟩
abbrev main_cst_0 : Ref sig .tc := ⟨.hbm, 59, rfl⟩
abbrev main_v38 : Ref sig .tc := ⟨.hbm, 60, rfl⟩
abbrev main_v39 : Ref sig .tc := ⟨.hbm, 61, rfl⟩
abbrev main_cst_1 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_2 : Ref sig .tc := ⟨.hbm, 90, rfl⟩
abbrev main_v67 : Ref sig .tc := ⟨.hbm, 91, rfl⟩
abbrev main_v68 : Ref sig .tc := ⟨.hbm, 92, rfl⟩
abbrev main_cst_3 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_4 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_5 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_6 : Ref sig .tc := ⟨.hbm, 119, rfl⟩
abbrev main_v92 : Ref sig .tc := ⟨.hbm, 120, rfl⟩
abbrev main_v93 : Ref sig .tc := ⟨.hbm, 121, rfl⟩
abbrev main_cst_7 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_8 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_9 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_10 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_11 : Ref sig .tc := ⟨.hbm, 167, rfl⟩
abbrev main_v135 : Ref sig .tc := ⟨.hbm, 168, rfl⟩
abbrev main_v136 : Ref sig .tc := ⟨.hbm, 169, rfl⟩
abbrev main_cst_12 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_cst_13 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_cst_14 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_cst_15 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_cst_16 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_cst_17 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_cst_18 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩

abbrev nD : Nat := 1
abbrev τ : Topo := Topo.v7x

variable {F : FTy → Type} [FloatOps F]

class Facts₀ : Prop where
  bcast_S20_S1x20_1 : S20.BroadcastsInDim S1x20 (![1] : Fin 1 → Fin S1x20.rank)
  bcast_S1x20_S32768x20_0_1 : S1x20.BroadcastsInDim S32768x20 (![0, 1] : Fin 2 → Fin S32768x20.rank)
  transposes_S1024x20_S20x1024_1_0 : S1024x20.Transposes [1, 0] S20x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  transposes_S512x1024_S1024x512_1_0 : S512x1024.Transposes [1, 0] S1024x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  transposes_S2x512_S512x2_1_0 : S2x512.Transposes [1, 0] S512x2
  bcast_S2_S1x2_1 : S2.BroadcastsInDim S1x2 (![1] : Fin 1 → Fin S1x2.rank)
  bcast_S1x2_S32768x2_0_1 : S1x2.BroadcastsInDim S32768x2 (![0, 1] : Fin 2 → Fin S32768x2.rank)
  bcast_S_S32768x2 : S_.BroadcastsInDim S32768x2 (![] : Fin 0 → Fin S32768x2.rank)
  slices_S32768x2_S32768x1_0_0 : S32768x2.Slices ![0, 0] S32768x1
  shapeCasts_S32768x1_S32768 : S32768x1.ShapeCasts S32768
  slices_S32768x2_S32768x1_0_1 : S32768x2.Slices ![0, 1] S32768x1
  slices_S32768x20_S32768x1_0_2 : S32768x20.Slices ![0, 2] S32768x1
  slices_S32768x20_S32768x1_0_3 : S32768x20.Slices ![0, 3] S32768x1
  slices_S32768x20_S32768x1_0_4 : S32768x20.Slices ![0, 4] S32768x1
  slices_S32768x20_S32768x1_0_5 : S32768x20.Slices ![0, 5] S32768x1
  slices_S32768x20_S32768x1_0_6 : S32768x20.Slices ![0, 6] S32768x1
  slices_S32768x20_S32768x1_0_7 : S32768x20.Slices ![0, 7] S32768x1
  bcast_S_S32768 : S_.BroadcastsInDim S32768 (![] : Fin 0 → Fin S32768.rank)
  bcast_S32768_S32768x1_0 : S32768.BroadcastsInDim S32768x1 (![0] : Fin 1 → Fin S32768x1.rank)
  concatenates_S32768x1_S32768x1_S32768x2_d1 : Shape.Concatenates [S32768x1, S32768x1] S32768x2 1
  slices_S32768x20_S32768x12_0_8 : S32768x20.Slices ![0, 8] S32768x12
  shapeCasts_S32768x12_S32768x3x4 : S32768x12.ShapeCasts S32768x3x4
  slices_S32768x3x4_S32768x3x1_0_0_0 : S32768x3x4.Slices ![0, 0, 0] S32768x3x1
  shapeCasts_S32768x3x1_S32768x3 : S32768x3x1.ShapeCasts S32768x3
  slices_S32768x3x4_S32768x3x1_0_0_1 : S32768x3x4.Slices ![0, 0, 1] S32768x3x1
  bcast_S_S32768x3 : S_.BroadcastsInDim S32768x3 (![] : Fin 0 → Fin S32768x3.rank)
  bcast_S32768x1_S32768x3_0_1 : S32768x1.BroadcastsInDim S32768x3 (![0, 1] : Fin 2 → Fin S32768x3.rank)
  bcast_S_S32768x1 : S_.BroadcastsInDim S32768x1 (![] : Fin 0 → Fin S32768x1.rank)
  bcast_S32768x3_S32768x3x1_0_1 : S32768x3.BroadcastsInDim S32768x3x1 (![0, 1] : Fin 2 → Fin S32768x3x1.rank)
  concatenates_S32768x3x1_S32768x3x1_S32768x3x2_d2 : Shape.Concatenates [S32768x3x1, S32768x3x1] S32768x3x2 2
  bcast_S32768x2_S32768x1x2_0_2 : S32768x2.BroadcastsInDim S32768x1x2 (![0, 2] : Fin 2 → Fin S32768x1x2.rank)
  concatenates_S32768x1x2_S32768x3x2_S32768x4x2_d1 : Shape.Concatenates [S32768x1x2, S32768x3x2] S32768x4x2 1
  concatenates_S32768x1_S32768x3_S32768x4_d1 : Shape.Concatenates [S32768x1, S32768x3] S32768x4 1
  shapeCasts_S32768x4x2_S32768x8 : S32768x4x2.ShapeCasts S32768x8
  concatenates_S32768x2_S32768x8_S32768x4_S32768x14_d1 : Shape.Concatenates [S32768x2, S32768x8, S32768x4] S32768x14 1
  dot_S32768x20_S20x1024_S32768x1024_1_0_0_1_n_n_wf : DotDims.WF S32768x20 S20x1024 S32768x1024 [1] [0] [0] [1] [] []
  dot_S32768x1024_S1024x512_S32768x512_1_0_0_1_n_n_wf : DotDims.WF S32768x1024 S1024x512 S32768x512 [1] [0] [0] [1] [] []
  dot_S32768x512_S512x2_S32768x2_1_0_0_1_n_n_wf : DotDims.WF S32768x512 S512x2 S32768x2 [1] [0] [0] [1] [] []

variable [Facts₀]

def dot_S32768x20_S20x1024_S32768x1024_1_0_0_1_n_n : DotDims S32768x20 S20x1024 S32768x1024 where
  lhsContracting := [1]
  rhsContracting := [0]
  lhsNonContracting := [0]
  rhsNonContracting := [1]
  lhsBatch := []
  rhsBatch := []
  wf := dot_S32768x20_S20x1024_S32768x1024_1_0_0_1_n_n_wf
def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S32768x512_S512x2_S32768x2_1_0_0_1_n_n : DotDims S32768x512 S512x2 S32768x2 where
  lhsContracting := [1]
  rhsContracting := [0]
  lhsNonContracting := [0]
  rhsNonContracting := [1]
  lhsBatch := []
  rhsBatch := []
  wf := dot_S32768x512_S512x2_S32768x2_1_0_0_1_n_n_wf

class Facts : Prop extends Facts₀ where

variable [Facts]
-- ==== Proof.Spec.lean ====
/-
  One batch row of the controller network with its barrier terms, as a function of the row's twenty inputs and of the
  weights, over plain coordinates (no array shapes).

  The row's inputs `x` are de-normalised to the state `s j = x j * std j + mean j`. A shared hidden layer
  `h = relu (W1 x + b1)` feeds two heads: the nominal control `u = W31 relu (W21 h + b21) + b31` and the two
  penalties `p = 4 * logistic (Wobs2 relu (Wobs1 h + bobs1) + bobs2)`. From the state come the heading `s 2`, the
  speed `s 3`, one moving obstacle (position `s 4, s 5`, heading `s 6`, speed `s 7`) and three fixed obstacles
  (positions `s 8, s 9`, `s 12, s 13`, `s 16, s 17`). The fourteen outputs are: the control (2); for each of the four
  obstacles the negated pair of steering coefficients of the second derivative of its squared-distance barrier (8);
  and for each obstacle the margin `accel + (p0 + p1) * rate + p0 * p1 * gap` (4).

  Every float constant is kept as the 32-bit word both programs print, so it is never evaluated; sums and products
  are those of the extended reals, in the order both programs spell them.
-/
import Idealize.ShloMosaic.PureOps.Ideal
import Idealize.ShloMosaic.Lib.ValueIdx

noncomputable section

open scoped BigOperators

namespace Cert.Controller

open Idealize.ShloMosaic Idealize.ShloMosaic.ValueIdx

local notation "w0" => (Ideal.ofBits FTy.f32 0x00000000#32 : EReal)
local notation "w2" => (Ideal.ofBits FTy.f32 0x40000000#32 : EReal)
local notation "wm2" => (Ideal.ofBits FTy.f32 0xC0000000#32 : EReal)
local notation "w4" => (Ideal.ofBits FTy.f32 0x40800000#32 : EReal)
local notation "wR2" => (Ideal.ofBits FTy.f32 0x3E4F5C29#32 : EReal)

/-! ## The network -/

/-- A dense layer before its activation: output `j` is the sum over `k` of input `k` times weight `(j, k)`, plus
    bias `j`. -/
def dense {K J : Nat} (a : Fin K → EReal) (W : Fin J → Fin K → EReal) (b : Fin J → EReal) (j : Fin J) : EReal :=
  (∑ k : Fin K, a k * W j k) + b j

/-- The rectifier: the larger of the value and the zero word. -/
def relu (z : EReal) : EReal := max z w0

/-- The de-normalised state of a row: input times scale plus offset, coordinate by coordinate. -/
def state (x mean std : Fin 20 → EReal) (j : Fin 20) : EReal := x j * std j + mean j

/-- The shared hidden layer of a row. -/
def hidden (x : Fin 20 → EReal) (W1 : Fin 1024 → Fin 20 → EReal) (b1 : Fin 1024 → EReal) (a : Fin 1024) : EReal :=
  relu (dense x W1 b1 a)

/-- A head's own hidden layer over the shared one. -/
def branch (h : Fin 1024 → EReal) (W : Fin 512 → Fin 1024 → EReal) (b : Fin 512 → EReal) (a : Fin 512) : EReal :=
  relu (dense h W b a)

/-- The nominal control of a row: a linear read-out of its branch. -/
def control (h : Fin 1024 → EReal) (W21 : Fin 512 → Fin 1024 → EReal) (b21 : Fin 512 → EReal)
    (W31 : Fin 2 → Fin 512 → EReal) (b31 : Fin 2 → EReal) (a : Fin 2) : EReal :=
  dense (branch h W21 b21) W31 b31 a

/-- The two penalties of a row: four times the logistic of a linear read-out of the other branch. -/
def penalty (h : Fin 1024 → EReal) (Wobs1 : Fin 512 → Fin 1024 → EReal) (bobs1 : Fin 512 → EReal)
    (Wobs2 : Fin 2 → Fin 512 → EReal) (bobs2 : Fin 2 → EReal) (a : Fin 2) : EReal :=
  w4 * Ideal.logistic (dense (branch h Wobs1 bobs1) Wobs2 bobs2 a)

/-! ## The barrier terms of one obstacle, from the offsets `dx, dy` to it -/

/-- Squared distance less the squared safety radius. -/
def gap (dx dy : EReal) : EReal := dx * dx + dy * dy - wR2

/-- The coefficient of the turning input: `-2 dx v sin θ + 2 dy v cos θ`. -/
def steer1 (dx dy v st ct : EReal) : EReal := wm2 * dx * v * st + w2 * dy * v * ct

/-- The coefficient of the acceleration input: `2 dx cos θ + 2 dy sin θ`. -/
def steer2 (dx dy st ct : EReal) : EReal := w2 * dx * ct + w2 * dy * st

/-- The margin of one obstacle from its drift term, the two penalties, the barrier's rate and the gap. -/
def margin (accel p0 p1 rate g : EReal) : EReal := accel + (p0 + p1) * rate + p0 * p1 * g

/-- The barrier's rate against a moving obstacle of speed `ov` and heading cosine / sine `oct, ost`. -/
def movingRate (dx dy v ct st ov oct ost : EReal) : EReal :=
  w2 * dx * (v * ct - ov * oct) + w2 * dy * (v * st - ov * ost)

/-- The drift term against a moving obstacle: `2 (v² + ov² - 2 v ov cos (θ + oθ))`. -/
def movingAccel (v ov th oth : EReal) : EReal := w2 * (v * v + ov * ov - w2 * v * ov * Ideal.cos (th + oth))

/-- The barrier's rate against a fixed obstacle. -/
def fixedRate (dx dy v ct st : EReal) : EReal := w2 * dx * v * ct + w2 * dy * v * st

/-- The drift term against a fixed obstacle: `2 v²`. -/
def fixedAccel (v : EReal) : EReal := w2 * v * v

/-! ## The fourteen outputs of a row -/

/-- The outputs of a row from its control `u`, its penalties `p` and its state `s`. -/
def out (u p : Fin 2 → EReal) (s : Fin 20 → EReal) : Fin 14 → EReal
  | ⟨0, _⟩ => u 0
  | ⟨1, _⟩ => u 1
  | ⟨2, _⟩ => -(steer1 (-(s 4)) (-(s 5)) (s 3) (Ideal.sin (s 2)) (Ideal.cos (s 2)))
  | ⟨3, _⟩ => -(steer2 (-(s 4)) (-(s 5)) (Ideal.sin (s 2)) (Ideal.cos (s 2)))
  | ⟨4, _⟩ => -(steer1 (-(s 8)) (-(s 9)) (s 3) (Ideal.sin (s 2)) (Ideal.cos (s 2)))
  | ⟨5, _⟩ => -(steer2 (-(s 8)) (-(s 9)) (Ideal.sin (s 2)) (Ideal.cos (s 2)))
  | ⟨6, _⟩ => -(steer1 (-(s 12)) (-(s 13)) (s 3) (Ideal.sin (s 2)) (Ideal.cos (s 2)))
  | ⟨7, _⟩ => -(steer2 (-(s 12)) (-(s 13)) (Ideal.sin (s 2)) (Ideal.cos (s 2)))
  | ⟨8, _⟩ => -(steer1 (-(s 16)) (-(s 17)) (s 3) (Ideal.sin (s 2)) (Ideal.cos (s 2)))
  | ⟨9, _⟩ => -(steer2 (-(s 16)) (-(s 17)) (Ideal.sin (s 2)) (Ideal.cos (s 2)))
  | ⟨10, _⟩ => margin (movingAccel (s 3) (s 7) (s 2) (s 6)) (p 0) (p 1)
      (movingRate (-(s 4)) (-(s 5)) (s 3) (Ideal.cos (s 2)) (Ideal.sin (s 2)) (s 7) (Ideal.cos (s 6)) (Ideal.sin (s 6)))
      (gap (-(s 4)) (-(s 5)))
  | ⟨11, _⟩ => margin (fixedAccel (s 3)) (p 0) (p 1)
      (fixedRate (-(s 8)) (-(s 9)) (s 3) (Ideal.cos (s 2)) (Ideal.sin (s 2))) (gap (-(s 8)) (-(s 9)))
  | ⟨12, _⟩ => margin (fixedAccel (s 3)) (p 0) (p 1)
      (fixedRate (-(s 12)) (-(s 13)) (s 3) (Ideal.cos (s 2)) (Ideal.sin (s 2))) (gap (-(s 12)) (-(s 13)))
  | ⟨13, _⟩ => margin (fixedAccel (s 3)) (p 0) (p 1)
      (fixedRate (-(s 16)) (-(s 17)) (s 3) (Ideal.cos (s 2)) (Ideal.sin (s 2))) (gap (-(s 16)) (-(s 17)))
  | ⟨n + 14, h⟩ => absurd h (by omega)

/-- One row: its fourteen outputs from its twenty inputs and the weights. -/
def row (x mean std : Fin 20 → EReal) (W1 : Fin 1024 → Fin 20 → EReal) (b1 : Fin 1024 → EReal)
    (W21 : Fin 512 → Fin 1024 → EReal) (b21 : Fin 512 → EReal) (W31 : Fin 2 → Fin 512 → EReal) (b31 : Fin 2 → EReal)
    (Wobs1 : Fin 512 → Fin 1024 → EReal) (bobs1 : Fin 512 → EReal) (Wobs2 : Fin 2 → Fin 512 → EReal)
    (bobs2 : Fin 2 → EReal) : Fin 14 → EReal :=
  out (control (hidden x W1 b1) W21 b21 W31 b31) (penalty (hidden x W1 b1) Wobs1 bobs1 Wobs2 bobs2) (state x mean std)

/-- The whole result array: entry `(r, q)` is output `q` of row `r`, computed from row `r` of the input array and
    the weight arrays. -/
def result (x : (⟨2, ![32768, 20]⟩ : Shape).Idx → EReal) (mean std : (⟨1, ![20]⟩ : Shape).Idx → EReal)
    (W1 : (⟨2, ![1024, 20]⟩ : Shape).Idx → EReal) (b1 : (⟨1, ![1024]⟩ : Shape).Idx → EReal)
    (W21 : (⟨2, ![512, 1024]⟩ : Shape).Idx → EReal) (b21 : (⟨1, ![512]⟩ : Shape).Idx → EReal)
    (W31 : (⟨2, ![2, 512]⟩ : Shape).Idx → EReal) (b31 : (⟨1, ![2]⟩ : Shape).Idx → EReal)
    (Wobs1 : (⟨2, ![512, 1024]⟩ : Shape).Idx → EReal) (bobs1 : (⟨1, ![512]⟩ : Shape).Idx → EReal)
    (Wobs2 : (⟨2, ![2, 512]⟩ : Shape).Idx → EReal) (bobs2 : (⟨1, ![2]⟩ : Shape).Idx → EReal) :
    (⟨2, ![32768, 14]⟩ : Shape).Idx → EReal :=
  fun i => row (fun j => x (ix2 (i 0) j)) (fun j => mean (ix1 j)) (fun j => std (ix1 j))
    (fun a k => W1 (ix2 a k)) (fun a => b1 (ix1 a)) (fun a k => W21 (ix2 a k)) (fun a => b21 (ix1 a))
    (fun a k => W31 (ix2 a k)) (fun a => b31 (ix1 a)) (fun a k => Wobs1 (ix2 a k)) (fun a => bobs1 (ix1 a))
    (fun a k => Wobs2 (ix2 a k)) (fun a => bobs2 (ix1 a)) (i 1)

end Cert.Controller

end
-- ==== Proof.LibPlainDot.lean ====
/-
  A general lemma file: the plain matrix product M×K by K×N read at an entry, at the ideal values.

  A `tpu.matmul` into the zero accumulator, and the host's `dot_general`, whose dimension numbers contract the left
  operand's second axis with the right operand's first (no batch axis) are, at entry `(i, j)`, the sum over
  `k : Fin K` of `L (i, k) * R (k, j)`. Stated for any dimension record EQUAL to `DotDims.plain M K N` (a printed
  program's record with these dimension numbers is, by `rfl`), for any extents and operand formats.
-/
import Idealize.ShloMosaic.Lib.ValueIdx
import Idealize.ShloMosaic.PureOps.Ideal.Laws

noncomputable section

open scoped BigOperators

namespace Cert.PlainDot

open Idealize.ShloMosaic Idealize.ShloMosaic.ValueIdx

variable (M K N : ℕ)

/-- The left operand's index at result index `j` and contraction index `q` has `j`'s row … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- … and the contraction coordinate as its column. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's index has the contraction coordinate as its row … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- … and `j`'s column. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

variable {M K N}

/-- The contraction's sum over its index type is the sum over `k : Fin K` of the operands at `(i, k)` and `(k, j)`. -/
theorem sum_contr {φ₁ φ₂ : FTy} (L : FVec Ideal ⟨2, ![M, K]⟩ φ₁) (R : FVec Ideal ⟨2, ![K, N]⟩ φ₂) (i : Fin M) (j : Fin N) :
    ∑ q : (DotDims.plain M K N).contr.Idx,
        L ((DotDims.plain M K N).lhsIdx (ix2 i j) q) * R ((DotDims.plain M K N).rhsIdx (ix2 i j) q)
      = ∑ k : Fin K, L (ix2 i k) * R (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs0 M K N _ _
      | ⟨1, _⟩ => exact (lhs1 M K N _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs0 M K N _ _).trans hk
      | ⟨1, _⟩ => exact rhs1 M K N _ _)
  rw [el, er]

/-- A `tpu.matmul` with these dimension numbers into the zero splat, read at `(i, j)`. -/
theorem matmul_zero_apply {φ₁ φ₂ : FTy} (d : DotDims ⟨2, ![M, K]⟩ ⟨2, ![K, N]⟩ ⟨2, ![M, N]⟩) (hd : d = DotDims.plain M K N)
    (prec : Option ContractPrecision) (L : FVec Ideal ⟨2, ![M, K]⟩ φ₁) (R : FVec Ideal ⟨2, ![K, N]⟩ φ₂) (i : Fin M) (j : Fin N) :
    matmul d prec L R (constant (F := Ideal) ⟨2, ![M, N]⟩ .f32 0x00000000#32) (ix2 i j) = ∑ k : Fin K, L (ix2 i k) * R (ix2 k j) := by
  subst hd
  show FloatOps.matmul (DotDims.plain M K N) prec L R (constant ⟨2, ![M, N]⟩ .f32 0x00000000#32) (ix2 i j) = _
  rw [Ideal.matmul_constant_zero_apply]
  exact sum_contr L R i j

/-- The host's `dot_general` with these dimension numbers, read at `(i, j)`. -/
theorem hostDot_apply {φ₁ φ₂ : FTy} (d : DotDims ⟨2, ![M, K]⟩ ⟨2, ![K, N]⟩ ⟨2, ![M, N]⟩) (hd : d = DotDims.plain M K N)
    (prec : Option ContractPrecision) (L : FVec Ideal ⟨2, ![M, K]⟩ φ₁) (R : FVec Ideal ⟨2, ![K, N]⟩ φ₂) (i : Fin M) (j : Fin N) :
    Host.dotGeneral (F := Ideal) d prec L R (ix2 i j) = ∑ k : Fin K, L (ix2 i k) * R (ix2 k j) := by
  subst hd
  simp only [Host.dotGeneral]
  rw [Ideal.dotGeneral_apply]
  exact sum_contr L R i j

end Cert.PlainDot

end
-- ==== Proof.KernelNetwork.lean ====
/-
  The network part of the kernel's body, read at an entry.

  Each staged block is read row by row: the de-normalised state at (p, j) is input (p, j) times scale j plus
  offset j; the hidden layer, the two branches and the control head are matrix products of a row with a transposed
  weight block, a bias row added and (but for the head) the rectifier applied; the penalties are four times the
  logistic of the other head, kept transposed as two rows of 2048 scalars. A change of float format is the identity
  on the extended reals, and a product into the zero accumulator is the plain sum over the contracted coordinate.
-/
import proofs.«137691_j87677462381133_2_alg».proof.Proof.Gen.KernelIdeal.Skeleton
import proofs.«137691_j87677462381133_2_alg».proof.Proof.Spec
import proofs.«137691_j87677462381133_2_alg».proof.Proof.LibPlainDot
import Idealize.ShloMosaic.Lib.ValueLayout
import Idealize.ShloMosaic.Lib.Pipeline.Value

noncomputable section

open scoped BigOperators

namespace Cert.KernelIdeal.RowValue

open Cert.KernelIdeal Cert.KernelIdeal.Gen Idealize.ShloMosaic Idealize.ShloMosaic.ValueIdx Cert.Controller

/-- The de-normalised state at (p, j): input times the scale row plus the offset row. -/
theorem state_apply (x0 : Vec Ideal S2048x20 .f32) (x1 x2 : Vec Ideal S1x20 .f32) (p : Fin 2048) (j : Fin 20) :
    k0_pay2 x0 x1 x2 (ix2 p j)
      = state (fun j => x0 (ix2 p j)) (fun j => x1 (ix2 0 j)) (fun j => x2 (ix2 0 j)) j := by
  unfold k0_pay2
  simp only [shapeCast_self, addf_apply, mulf_apply]
  rw [broadcastTo_1b_ab_apply, broadcastTo_1b_ab_apply]
  rfl

/-- The shared hidden layer at (p, a). -/
theorem hidden_apply (x0 : Vec Ideal S2048x20 .f32) (x3 : Vec Ideal S1024x20 .bf16) (x4 : Vec Ideal S1x1024 .f32)
    (p : Fin 2048) (a : Fin 1024) :
    k0_pay3 x0 x3 x4 (ix2 p a)
      = hidden (fun j => x0 (ix2 p j)) (fun a k => x3 (ix2 a k)) (fun a => x4 (ix2 0 a)) a := by
  unfold k0_pay3
  dsimp only
  simp only [shapeCast_self, truncf_apply, maximumf_apply, addf_apply, broadcast_apply]
  rw [Cert.PlainDot.matmul_zero_apply dot_S2048x20_S20x1024_S2048x1024_1_0_0_1_n_n rfl, broadcastTo_1b_ab_apply]
  have ht : ∀ k : Fin 20, transpose S20x1024 [1, 0] x3 transposes_S1024x20_p1_0_S20x1024 (ix2 k a) = x3 (ix2 a k) :=
    fun k => transpose_ix2_apply (a := 1024) (b := 20) x3 _ k a
  simp only [ht]
  rfl

/-- The control head's own hidden layer at (p, a), over the shared one. -/
theorem branch_apply (x0 : Vec Ideal S2048x20 .f32) (x3 : Vec Ideal S1024x20 .bf16) (x4 : Vec Ideal S1x1024 .f32)
    (x5 : Vec Ideal S512x1024 .bf16) (x6 : Vec Ideal S1x512 .f32) (p : Fin 2048) (a : Fin 512) :
    k0_pay4 x0 x3 x4 x5 x6 (ix2 p a)
      = branch (hidden (fun j => x0 (ix2 p j)) (fun a k => x3 (ix2 a k)) (fun a => x4 (ix2 0 a)))
          (fun a k => x5 (ix2 a k)) (fun a => x6 (ix2 0 a)) a := by
  unfold k0_pay4
  simp only [shapeCast_self, maximumf_apply, addf_apply, broadcast_apply]
  rw [Cert.PlainDot.matmul_zero_apply dot_S2048x1024_S1024x512_S2048x512_1_0_0_1_n_n rfl, broadcastTo_1b_ab_apply]
  have ht : ∀ k : Fin 1024, transpose S1024x512 [1, 0] x5 transposes_S512x1024_p1_0_S1024x512 (ix2 k a) = x5 (ix2 a k) :=
    fun k => transpose_ix2_apply (a := 512) (b := 1024) x5 _ k a
  simp only [ht, hidden_apply]
  rfl

/-- The nominal control at (p, a): a linear read-out of its branch. -/
theorem control_apply (h : FVec Ideal S2048x512 .f32) (x7 : Vec Ideal S2x512 .f32) (x8 : Vec Ideal S1x2 .f32)
    (p : Fin 2048) (a : Fin 2) :
    k0_pay7 h x7 x8 (ix2 p a)
      = dense (fun k => h (ix2 p k)) (fun a k => x7 (ix2 a k)) (fun a => x8 (ix2 0 a)) a := by
  unfold k0_pay7
  simp only [shapeCast_self, addf_apply]
  rw [Cert.PlainDot.matmul_zero_apply dot_S2048x512_S512x2_S2048x2_1_0_0_1_n_n rfl, broadcastTo_1b_ab_apply]
  have ht : ∀ k : Fin 512, transpose S512x2 [1, 0] x7 transposes_S2x512_p1_0_S512x2 (ix2 k a) = x7 (ix2 a k) :=
    fun k => transpose_ix2_apply (a := 2) (b := 512) x7 _ k a
  simp only [ht]
  rfl

/-- The penalties, kept transposed: entry (a, p) is four times the logistic of the other head's read-out of the
    other branch of row p. -/
theorem penalty_apply (hb : FVec Ideal S2048x1024 .bf16) (x10 : Vec Ideal S1x512 .f32) (x9 : Vec Ideal S512x1024 .bf16)
    (x11 : Vec Ideal S2x512 .f32) (x12 : Vec Ideal S1x2 .f32) (a : Fin 2) (p : Fin 2048) :
    k0_pay9 hb (k0_pay5 x10) (k0_pay6 x9) (constant S2048x512 .f32 0x00000000#32) x11 x12 (ix2 a p)
      = penalty (fun k => hb (ix2 p k)) (fun a k => x9 (ix2 a k)) (fun a => x10 (ix2 0 a))
          (fun a k => x11 (ix2 a k)) (fun a => x12 (ix2 0 a)) a := by
  unfold k0_pay9 k0_pay5 k0_pay6
  simp only [shapeCast_self]
  rw [transpose_ix2_apply (a := 2048) (b := 2)]
  simp only [mulf_apply, broadcast_apply, addf_apply]
  show _ * FloatOps.logistic (_ + _) = _
  rw [Cert.PlainDot.matmul_zero_apply dot_S2048x512_S512x2_S2048x2_1_0_0_1_n_n rfl, broadcastTo_1b_ab_apply]
  have ht : ∀ k : Fin 512, transpose S512x2 [1, 0] x11 transposes_S2x512_p1_0_S512x2 (ix2 k a) = x11 (ix2 a k) :=
    fun k => transpose_ix2_apply (a := 2) (b := 512) x11 _ k a
  have hm : ∀ k : Fin 512,
      matmul dot_S2048x1024_S1024x512_S2048x512_1_0_0_1_n_n none hb
          (transpose S1024x512 [1, 0] x9 transposes_S512x1024_p1_0_S1024x512)
          (constant (F := Ideal) S2048x512 .f32 0x00000000#32) (ix2 p k)
        = ∑ j : Fin 1024, hb (ix2 p j) * x9 (ix2 k j) := fun k => by
    rw [Cert.PlainDot.matmul_zero_apply dot_S2048x1024_S1024x512_S2048x512_1_0_0_1_n_n rfl]
    exact Finset.sum_congr rfl fun j _ => by rw [transpose_ix2_apply (a := 512) (b := 1024)]
  simp only [ht, maximumf_apply, addf_apply, broadcast_apply, hm, broadcastTo_1b_ab_apply]
  rfl

/-- The first penalty as a row: one scalar per batch row. -/
theorem penalty0_apply (hb : FVec Ideal S2048x1024 .bf16) (x10 : Vec Ideal S1x512 .f32) (x9 : Vec Ideal S512x1024 .bf16)
    (x11 : Vec Ideal S2x512 .f32) (x12 : Vec Ideal S1x2 .f32) (p : Fin 2048) :
    k0_pay10 hb (k0_pay5 x10) (k0_pay6 x9) (constant S2048x512 .f32 0x00000000#32) x11 x12 (ix2 0 p)
      = penalty (fun k => hb (ix2 p k)) (fun a k => x9 (ix2 a k)) (fun a => x10 (ix2 0 a))
          (fun a k => x11 (ix2 a k)) (fun a => x12 (ix2 0 a)) 0 := by
  unfold k0_pay10
  rw [slice2_axis0_apply 0 _ slices_S2x2048_o0_0_S1x2048 0 p 0 rfl]
  exact penalty_apply hb x10 x9 x11 x12 0 p

/-- The second penalty as a row. -/
theorem penalty1_apply (hb : FVec Ideal S2048x1024 .bf16) (x10 : Vec Ideal S1x512 .f32) (x9 : Vec Ideal S512x1024 .bf16)
    (x11 : Vec Ideal S2x512 .f32) (x12 : Vec Ideal S1x2 .f32) (p : Fin 2048) :
    k0_pay11 hb (k0_pay5 x10) (k0_pay6 x9) (constant S2048x512 .f32 0x00000000#32) x11 x12 (ix2 0 p)
      = penalty (fun k => hb (ix2 p k)) (fun a k => x9 (ix2 a k)) (fun a => x10 (ix2 0 a))
          (fun a k => x11 (ix2 a k)) (fun a => x12 (ix2 0 a)) 1 := by
  unfold k0_pay11
  rw [slice2_axis0_apply 1 _ slices_S2x2048_o1_0_S1x2048 0 p 1 rfl]
  exact penalty_apply hb x10 x9 x11 x12 1 p

end Cert.KernelIdeal.RowValue

end
-- ==== Proof.KernelBarrier.lean ====
/-
  The barrier terms of the kernel's body, read at an entry.

  The body transposes the de-normalised state once, so that every quantity of the barrier terms is a 1 x 2048 row
  holding one scalar per batch row: row o of the transposed state at p is the state at (p, o). All the arithmetic on
  those rows is entrywise, so at an entry it is the same arithmetic on scalars. The body writes a negation as the
  zero word minus the value, which is the negation on the extended reals.
-/
import proofs.«137691_j87677462381133_2_alg».proof.Proof.Gen.KernelIdeal.Skeleton
import proofs.«137691_j87677462381133_2_alg».proof.Proof.Spec
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Cert.Controller

/-- The zero word less a value is the value negated. -/
theorem zero_word_sub (z : EReal) : (Ideal.ofBits .f32 0x00000000#32 : EReal) - z = -z := by
  rw [Ideal.ofBits_zero_f32, zero_sub]

/-! ## Rows of the transposed state -/

/-- Row o of the transposed state, at p, is the state at (p, o). -/
theorem stateRow_apply (S : FVec Ideal S2048x20 .f32) (o : Nat) (ho : o < 20) (h : S20x2048.Slices ![o, 0] S1x2048)
    (p : Fin 2048) :
    extractStridedSlice S1x2048 ![o, 0] (k0_pay8 S) h (ix2 0 p) = S (ix2 p ⟨o, ho⟩) := by
  rw [slice2_axis0_apply o (k0_pay8 S) h 0 p ⟨o, ho⟩ rfl]
  unfold k0_pay8
  exact transpose_ix2_apply (a := 2048) (b := 20) S _ ⟨o, ho⟩ p

section Leaves

variable (S : FVec Ideal S2048x20 .f32) (p : Fin 2048)

/-- The heading. -/
theorem heading_apply : k0_pay12 S (ix2 0 p) = S (ix2 p ⟨2, by omega⟩) := stateRow_apply S 2 _ slices_S20x2048_o2_0_S1x2048 p
/-- The speed. -/
theorem speed_apply : k0_pay13 S (ix2 0 p) = S (ix2 p ⟨3, by omega⟩) := stateRow_apply S 3 _ slices_S20x2048_o3_0_S1x2048 p
/-- The heading's sine. -/
theorem sinHeading_apply : k0_pay14 S (ix2 0 p) = Ideal.sin (S (ix2 p ⟨2, by omega⟩)) := by
  show Ideal.sin (k0_pay12 S (ix2 0 p)) = _
  rw [heading_apply]
/-- The heading's cosine. -/
theorem cosHeading_apply : k0_pay15 S (ix2 0 p) = Ideal.cos (S (ix2 p ⟨2, by omega⟩)) := by
  show Ideal.cos (k0_pay12 S (ix2 0 p)) = _
  rw [heading_apply]
/-- The moving obstacle's heading. -/
theorem otherHeading_apply : k0_pay16 S (ix2 0 p) = S (ix2 p ⟨6, by omega⟩) := stateRow_apply S 6 _ slices_S20x2048_o6_0_S1x2048 p
/-- The moving obstacle's speed. -/
theorem otherSpeed_apply : k0_pay17 S (ix2 0 p) = S (ix2 p ⟨7, by omega⟩) := stateRow_apply S 7 _ slices_S20x2048_o7_0_S1x2048 p
/-- The offset to the moving obstacle, first coordinate. -/
theorem dx_apply : k0_pay18 S (ix2 0 p) = -(S (ix2 p ⟨4, by omega⟩)) := by
  show (Ideal.ofBits .f32 0x00000000#32 : EReal) - _ = _
  rw [zero_word_sub]
  exact congrArg Neg.neg (stateRow_apply S 4 _ _ p)
/-- The offset to the moving obstacle, second coordinate. -/
theorem dy_apply : k0_pay19 S (ix2 0 p) = -(S (ix2 p ⟨5, by omega⟩)) := by
  show (Ideal.ofBits .f32 0x00000000#32 : EReal) - _ = _
  rw [zero_word_sub]
  exact congrArg Neg.neg (stateRow_apply S 5 _ _ p)
/-- The sine of the moving obstacle's heading. -/
theorem sinOther_apply : k0_pay20 S (ix2 0 p) = Ideal.sin (S (ix2 p ⟨6, by omega⟩)) := by
  show Ideal.sin (k0_pay16 S (ix2 0 p)) = _
  rw [otherHeading_apply]
/-- The cosine of the moving obstacle's heading. -/
theorem cosOther_apply : k0_pay21 S (ix2 0 p) = Ideal.cos (S (ix2 p ⟨6, by omega⟩)) := by
  show Ideal.cos (k0_pay16 S (ix2 0 p)) = _
  rw [otherHeading_apply]
/-- The gap to the moving obstacle. -/
theorem gapMoving_apply : k0_pay22 S (ix2 0 p) = gap (-(S (ix2 p ⟨4, by omega⟩))) (-(S (ix2 p ⟨5, by omega⟩))) := by
  show gap (k0_pay18 S (ix2 0 p)) (k0_pay19 S (ix2 0 p)) = _
  rw [dx_apply, dy_apply]

/-- The offsets to the three fixed obstacles. -/
theorem dxFixed0_apply : k0_pay28 (k0_pay8 S) (ix2 0 p) = -(S (ix2 p ⟨8, by omega⟩)) := by
  show (Ideal.ofBits .f32 0x00000000#32 : EReal) - _ = _
  rw [zero_word_sub]
  exact congrArg Neg.neg (stateRow_apply S 8 _ _ p)
theorem dyFixed0_apply : k0_pay29 (k0_pay8 S) (ix2 0 p) = -(S (ix2 p ⟨9, by omega⟩)) := by
  show (Ideal.ofBits .f32 0x00000000#32 : EReal) - _ = _
  rw [zero_word_sub]
  exact congrArg Neg.neg (stateRow_apply S 9 _ _ p)
theorem dxFixed1_apply : k0_pay36 (k0_pay8 S) (ix2 0 p) = -(S (ix2 p ⟨12, by omega⟩)) := by
  show (Ideal.ofBits .f32 0x00000000#32 : EReal) - _ = _
  rw [zero_word_sub]
  exact congrArg Neg.neg (stateRow_apply S 12 _ _ p)
theorem dyFixed1_apply : k0_pay37 (k0_pay8 S) (ix2 0 p) = -(S (ix2 p ⟨13, by omega⟩)) := by
  show (Ideal.ofBits .f32 0x00000000#32 : EReal) - _ = _
  rw [zero_word_sub]
  exact congrArg Neg.neg (stateRow_apply S 13 _ _ p)
theorem dxFixed2_apply : k0_pay43 (k0_pay8 S) (ix2 0 p) = -(S (ix2 p ⟨16, by omega⟩)) := by
  show (Ideal.ofBits .f32 0x00000000#32 : EReal) - _ = _
  rw [zero_word_sub]
  exact congrArg Neg.neg (stateRow_apply S 16 _ _ p)
theorem dyFixed2_apply : k0_pay44 (k0_pay8 S) (ix2 0 p) = -(S (ix2 p ⟨17, by omega⟩)) := by
  show (Ideal.ofBits .f32 0x00000000#32 : EReal) - _ = _
  rw [zero_word_sub]
  exact congrArg Neg.neg (stateRow_apply S 17 _ _ p)

end Leaves

/-! ## Entrywise arithmetic on rows -/

section Entrywise

variable (i : S1x2048.Idx) (v58 : FVec Ideal S20x2048 .f32)
  (v60 v61 v62 v63 v64 v65 v68 v69 v71 v73 v74 v75 v80 : FVec Ideal S1x2048 .f32)

/-- The negated turning coefficient, from the offsets, the speed and the heading's sine and cosine. -/
theorem steerTurn_apply : k0_pay23 v63 v64 v65 v71 v73 i = -(steer1 (v71 i) (v73 i) (v63 i) (v64 i) (v65 i)) :=
  zero_word_sub _

/-- The negated acceleration coefficient. -/
theorem steerAccel_apply : k0_pay24 v64 v65 v71 v73 i = -(steer2 (v71 i) (v73 i) (v64 i) (v65 i)) :=
  zero_word_sub _

/-- The margin against the moving obstacle. -/
theorem marginMoving_apply :
    k0_pay27 (k0_pay25 v60 v61 v62 v63 v64 v65 v68 v69 v71 v73 v74 v75) (k0_pay26 v60 v61 v80) i
      = margin (movingAccel (v63 i) (v69 i) (v62 i) (v68 i)) (v60 i) (v61 i)
          (movingRate (v71 i) (v73 i) (v63 i) (v65 i) (v64 i) (v69 i) (v75 i) (v74 i)) (v80 i) := rfl

/-- The first fixed obstacle: its two negated coefficients and its margin, from its offsets. -/
theorem steerTurnFixed0_apply :
    k0_pay31 v58 v63 v64 v65 i = -(steer1 (k0_pay28 v58 i) (k0_pay29 v58 i) (v63 i) (v64 i) (v65 i)) := zero_word_sub _
theorem steerAccelFixed0_apply :
    k0_pay32 v58 v64 v65 i = -(steer2 (k0_pay28 v58 i) (k0_pay29 v58 i) (v64 i) (v65 i)) := zero_word_sub _
theorem marginFixed0_apply :
    k0_pay35 (k0_pay30 v58) (k0_pay33 v58 v60 v61 v63 v64 v65) (k0_pay34 v60 v61) i
      = margin (fixedAccel (v63 i)) (v60 i) (v61 i)
          (fixedRate (k0_pay28 v58 i) (k0_pay29 v58 i) (v63 i) (v65 i) (v64 i))
          (gap (k0_pay28 v58 i) (k0_pay29 v58 i)) := rfl

/-- The second fixed obstacle. -/
theorem steerTurnFixed1_apply :
    k0_pay39 v58 v63 v64 v65 i = -(steer1 (k0_pay36 v58 i) (k0_pay37 v58 i) (v63 i) (v64 i) (v65 i)) := zero_word_sub _
theorem steerAccelFixed1_apply :
    k0_pay40 v58 v64 v65 i = -(steer2 (k0_pay36 v58 i) (k0_pay37 v58 i) (v64 i) (v65 i)) := zero_word_sub _
theorem marginFixed1_apply :
    k0_pay42 v60 v61 (k0_pay38 v58) (k0_pay41 v58 v60 v61 v63 v64 v65) i
      = margin (fixedAccel (v63 i)) (v60 i) (v61 i)
          (fixedRate (k0_pay36 v58 i) (k0_pay37 v58 i) (v63 i) (v65 i) (v64 i))
          (gap (k0_pay36 v58 i) (k0_pay37 v58 i)) := rfl

/-- The third fixed obstacle; its margin is finished where the block is assembled. -/
theorem steerTurnFixed2_apply :
    k0_pay47 v58 v63 v64 v65 i = -(steer1 (k0_pay43 v58 i) (k0_pay44 v58 i) (v63 i) (v64 i) (v65 i)) := zero_word_sub _
theorem steerAccelFixed2_apply :
    k0_pay48 v58 v64 v65 i = -(steer2 (k0_pay43 v58 i) (k0_pay44 v58 i) (v64 i) (v65 i)) := zero_word_sub _
theorem marginFixed2_apply :
    addf (addf (k0_pay46 v63) (k0_pay49 v58 v60 v61 v63 v64 v65)) (mulf (mulf v60 v61) (k0_pay45 v58)) i
      = margin (fixedAccel (v63 i)) (v60 i) (v61 i)
          (fixedRate (k0_pay43 v58 i) (k0_pay44 v58 i) (v63 i) (v65 i) (v64 i))
          (gap (k0_pay43 v58 i) (k0_pay44 v58 i)) := rfl

end Entrywise

end Cert.KernelIdeal.RowValue

end
-- ==== Proof.KernelLayout.lean ====
/-
  Joined arrays read at an entry.

  The stored block is three column groups laid side by side (2 + 8 + 4 = 14 columns); the middle and last groups are
  stacks of 1 x 2048 rows, transposed. An entry of a joined array is an entry of the piece whose span holds its
  coordinate on the joined axis, at that coordinate less the extents before it.
-/
import proofs.«137691_j87677462381133_2_alg».proof.Proof.Gen.KernelIdeal.Skeleton
import Idealize.ShloMosaic.Lib.ValueLayout
import Idealize.ShloMosaic.Lib.Pipeline.Value

noncomputable section

namespace Cert.KernelIdeal.RowValue

open Cert.KernelIdeal Cert.KernelIdeal.Gen Idealize.ShloMosaic Idealize.ShloMosaic.ValueIdx

/-- Columns 0 and 1 of the block are the first group's. -/
theorem cols_first (A : FVec Ideal S2048x2 .f32) (B : FVec Ideal S2048x8 .f32) (C : FVec Ideal S2048x4 .f32)
    (p : Fin 2048) (q : Fin 14) (a : Fin 2) (hq : q.val = a.val) :
    concatenate S2048x14 1 [⟨S2048x2, A⟩, ⟨S2048x8, B⟩, ⟨S2048x4, C⟩]
        concatenates_S2048x2_S2048x8_S2048x4_S2048x14_d1 (ix2 p q) = A (ix2 p a) :=
  concatenate_apply_piece (1 : Fin 2) _ _ (ix2 p q) 0 (by show 0 < 3; omega) S2048x2 A rfl rfl 0 rfl (ix2 p a)
    (fun b hb => by match b with | ⟨0, _⟩ => rfl | ⟨1, _⟩ => exact absurd rfl hb)
    (by show 0 + a.val = q.val; omega)

/-- Columns 2 to 9 are the second group's columns 0 to 7. -/
theorem cols_second (A : FVec Ideal S2048x2 .f32) (B : FVec Ideal S2048x8 .f32) (C : FVec Ideal S2048x4 .f32)
    (p : Fin 2048) (q : Fin 14) (a : Fin 8) (hq : q.val = 2 + a.val) :
    concatenate S2048x14 1 [⟨S2048x2, A⟩, ⟨S2048x8, B⟩, ⟨S2048x4, C⟩]
        concatenates_S2048x2_S2048x8_S2048x4_S2048x14_d1 (ix2 p q) = B (ix2 p a) :=
  concatenate_apply_piece (1 : Fin 2) _ _ (ix2 p q) 1 (by show 1 < 3; omega) S2048x8 B rfl rfl 2 rfl (ix2 p a)
    (fun b hb => by match b with | ⟨0, _⟩ => rfl | ⟨1, _⟩ => exact absurd rfl hb)
    (by show 2 + a.val = q.val; omega)

/-- Columns 10 to 13 are the third group's columns 0 to 3. -/
theorem cols_third (A : FVec Ideal S2048x2 .f32) (B : FVec Ideal S2048x8 .f32) (C : FVec Ideal S2048x4 .f32)
    (p : Fin 2048) (q : Fin 14) (a : Fin 4) (hq : q.val = 10 + a.val) :
    concatenate S2048x14 1 [⟨S2048x2, A⟩, ⟨S2048x8, B⟩, ⟨S2048x4, C⟩]
        concatenates_S2048x2_S2048x8_S2048x4_S2048x14_d1 (ix2 p q) = C (ix2 p a) :=
  concatenate_apply_piece (1 : Fin 2) _ _ (ix2 p q) 2 (by show 2 < 3; omega) S2048x4 C rfl rfl 10 rfl (ix2 p a)
    (fun b hb => by match b with | ⟨0, _⟩ => rfl | ⟨1, _⟩ => exact absurd rfl hb)
    (by show 10 + a.val = q.val; omega)

/-- Row k of a stack of 1 x 2048 rows is its k-th piece. The extents of the pieces before it add up to k. -/
theorem stack_apply {n : Nat} (xs : List ((s : Shape) × (s.Idx → EReal)))
    (h : Shape.Concatenates (xs.map (·.1)) ⟨2, ![n, 2048]⟩ 0) (k : Nat) (hk : k < xs.length) (hn : k < n)
    (x : S1x2048.Idx → EReal) (hx : xs[k] = ⟨S1x2048, x⟩)
    (hpre : (((xs.take k).map (·.1)).map fun s => if h : s.rank = 2 then s.size ((0 : Fin 2).cast h.symm) else 0).sum = k)
    (p : Fin 2048) :
    concatenate ⟨2, ![n, 2048]⟩ 0 xs h (ix2 ⟨k, hn⟩ p) = x (ix2 0 p) :=
  concatenate_apply_piece (0 : Fin 2) xs h (ix2 ⟨k, hn⟩ p) k hk S1x2048 x hx rfl k hpre (ix2 0 p)
    (fun b hb => by match b with | ⟨0, _⟩ => exact absurd rfl hb | ⟨1, _⟩ => rfl)
    (by show k + 0 = k; omega)

variable (v47 : FVec Ideal S2048x2 .f32) (v60 v61 v131 v180 v229 v240 v252 v274 : FVec Ideal S1x2048 .f32)
  (v279 : FVec Ideal S8x2048 .f32)

/-- The stored block's columns 0 and 1 are the control's. -/
theorem block_control (p : Fin 2048) (q : Fin 14) (a : Fin 2) (hq : q.val = a.val) :
    k0_pay1 v47 v60 v61 v131 v180 v229 v240 v252 v274 v279 (ix2 p q) = v47 (ix2 p a) := by
  unfold k0_pay1
  exact cols_first _ _ _ p q a hq

/-- Its columns 2 to 9 are rows 0 to 7 of the stack of steering rows. -/
theorem block_steer (p : Fin 2048) (q : Fin 14) (a : Fin 8) (hq : q.val = 2 + a.val) :
    k0_pay1 v47 v60 v61 v131 v180 v229 v240 v252 v274 v279 (ix2 p q) = v279 (ix2 a p) := by
  unfold k0_pay1
  rw [cols_second _ _ _ p q a hq]
  exact transpose_ix2_apply (a := 8) (b := 2048) v279 _ p a

/-- Its columns 10 to 13 are rows 0 to 3 of the stack of margin rows. -/
theorem block_margin (p : Fin 2048) (q : Fin 14) (a : Fin 4) (hq : q.val = 10 + a.val) :
    k0_pay1 v47 v60 v61 v131 v180 v229 v240 v252 v274 v279 (ix2 p q)
      = concatenate S4x2048 0 [⟨S1x2048, v131⟩, ⟨S1x2048, v180⟩, ⟨S1x2048, v229⟩,
          ⟨S1x2048, addf (addf v252 v274) (mulf (mulf v60 v61) v240)⟩]
          concatenates_S1x2048_S1x2048_S1x2048_S1x2048_S4x2048_d0 (ix2 a p) := by
  unfold k0_pay1
  rw [cols_third _ _ _ p q a hq]
  exact transpose_ix2_apply (a := 4) (b := 2048) _ _ p a

end Cert.KernelIdeal.RowValue

end
-- ==== Proof.KernelRow.lean ====
/-
  What one block of the kernel's result holds.

  The body's single store writes a 2048 x 14 block. Entry (p, q) of that block is output q of the specification's
  row function applied to row p of the staged input block and to the staged weights: the de-normalised state, the
  shared hidden layer and the two heads are computed row by row, the barrier terms are computed on the transposed
  state (every quantity a 1 x 2048 row of scalars, one per batch row), stacked, transposed back and joined to the
  control columns. Column by column: 0 and 1 are the control; 2 to 9 the negated steering coefficients of the moving
  obstacle and of the three fixed ones; 10 to 13 their margins.
-/
import proofs.«137691_j87677462381133_2_alg».proof.Proof.Gen.KernelIdeal.Frame
import proofs.«137691_j87677462381133_2_alg».proof.Proof.Spec
import proofs.«137691_j87677462381133_2_alg».proof.Proof.KernelNetwork
import proofs.«137691_j87677462381133_2_alg».proof.Proof.KernelBarrier
import proofs.«137691_j87677462381133_2_alg».proof.Proof.KernelLayout

noncomputable section

namespace Cert.KernelIdeal.RowValue

open Cert.KernelIdeal Cert.KernelIdeal.Gen Idealize.ShloMosaic Idealize.ShloMosaic.ValueIdx

/-- The offsets of every whole-block load and store of the body are zero. -/
theorem offsets_zero : (![0, 0] : Fin 2 → Nat) = fun _ => 0 :=
  funext fun a => by match a with | ⟨0, _⟩ => rfl | ⟨1, _⟩ => rfl

/-- Entry (p, q) of the block the body stores is output q of row p. -/
theorem block_eq (x0 : Vec Ideal S2048x20 .f32) (x1 x2 : Vec Ideal S1x20 .f32) (x3 : Vec Ideal S1024x20 .bf16)
    (x4 : Vec Ideal S1x1024 .f32) (x5 : Vec Ideal S512x1024 .bf16) (x6 : Vec Ideal S1x512 .f32)
    (x7 : Vec Ideal S2x512 .f32) (x8 : Vec Ideal S1x2 .f32) (x9 : Vec Ideal S512x1024 .bf16)
    (x10 : Vec Ideal S1x512 .f32) (x11 : Vec Ideal S2x512 .f32) (x12 : Vec Ideal S1x2 .f32)
    (p : Fin 2048) (q : Fin 14) :
    out0_13 x0 x1 x2 x3 x4 x5 x6 x7 x8 x9 x10 x11 x12 (ix2 p q)
      = Cert.Controller.row (fun j => x0 (ix2 p j)) (fun j => x1 (ix2 0 j)) (fun j => x2 (ix2 0 j))
          (fun a k => x3 (ix2 a k)) (fun a => x4 (ix2 0 a)) (fun a k => x5 (ix2 a k)) (fun a => x6 (ix2 0 a))
          (fun a k => x7 (ix2 a k)) (fun a => x8 (ix2 0 a)) (fun a k => x9 (ix2 a k)) (fun a => x10 (ix2 0 a))
          (fun a k => x11 (ix2 a k)) (fun a => x12 (ix2 0 a)) q := by
  unfold out0_13
  rw [View.canon_unit_zero offsets_zero]
  have e0 : View.ld x0 r0_0 = x0 := View.ld_unit_zero offsets_zero _ x0
  have e1 : View.ld x1 r0_1 = x1 := View.ld_unit_zero offsets_zero _ x1
  have e2 : View.ld x2 r0_1 = x2 := View.ld_unit_zero offsets_zero _ x2
  have e3 : View.ld x3 r0_2 = x3 := View.ld_unit_zero offsets_zero _ x3
  have e4 : View.ld x4 r0_3 = x4 := View.ld_unit_zero offsets_zero _ x4
  have e5 : View.ld x5 r0_4 = x5 := View.ld_unit_zero offsets_zero _ x5
  have e6 : View.ld x6 r0_5 = x6 := View.ld_unit_zero offsets_zero _ x6
  have e7 : View.ld x7 r0_6 = x7 := View.ld_unit_zero offsets_zero _ x7
  have e8 : View.ld x8 r0_7 = x8 := View.ld_unit_zero offsets_zero _ x8
  have e9 : View.ld x9 r0_4 = x9 := View.ld_unit_zero offsets_zero _ x9
  have e10 : View.ld x10 r0_5 = x10 := View.ld_unit_zero offsets_zero _ x10
  have e11 : View.ld x11 r0_6 = x11 := View.ld_unit_zero offsets_zero _ x11
  have e12 : View.ld x12 r0_7 = x12 := View.ld_unit_zero offsets_zero _ x12
  match q with
  | ⟨0, hq⟩ =>
    rw [block_control _ _ _ _ _ _ _ _ _ _ p ⟨0, hq⟩ 0 rfl, control_apply]
    simp only [branch_apply, e0, e3, e4, e5, e6]
    rw [e7, e8]
    rfl
  | ⟨1, hq⟩ =>
    rw [block_control _ _ _ _ _ _ _ _ _ _ p ⟨1, hq⟩ 1 rfl, control_apply]
    simp only [branch_apply, e0, e3, e4, e5, e6]
    rw [e7, e8]
    rfl
  | ⟨2, hq⟩ =>
    rw [block_steer _ _ _ _ _ _ _ _ _ _ p ⟨2, hq⟩ ⟨0, by omega⟩ rfl]
    refine (stack_apply _ _ 0 (by show 0 < 8; omega) (by omega) _ rfl rfl p).trans ?_
    rw [steerTurn_apply, dx_apply, dy_apply, speed_apply, sinHeading_apply, cosHeading_apply]
    simp only [state_apply, e0, e1, e2]
    rfl
  | ⟨3, hq⟩ =>
    rw [block_steer _ _ _ _ _ _ _ _ _ _ p ⟨3, hq⟩ ⟨1, by omega⟩ rfl]
    refine (stack_apply _ _ 1 (by show 1 < 8; omega) (by omega) _ rfl rfl p).trans ?_
    rw [steerAccel_apply, dx_apply, dy_apply, sinHeading_apply, cosHeading_apply]
    simp only [state_apply, e0, e1, e2]
    rfl
  | ⟨4, hq⟩ =>
    rw [block_steer _ _ _ _ _ _ _ _ _ _ p ⟨4, hq⟩ ⟨2, by omega⟩ rfl]
    refine (stack_apply _ _ 2 (by show 2 < 8; omega) (by omega) _ rfl rfl p).trans ?_
    rw [steerTurnFixed0_apply, dxFixed0_apply, dyFixed0_apply, speed_apply, sinHeading_apply, cosHeading_apply]
    simp only [state_apply, e0, e1, e2]
    rfl
  | ⟨5, hq⟩ =>
    rw [block_steer _ _ _ _ _ _ _ _ _ _ p ⟨5, hq⟩ ⟨3, by omega⟩ rfl]
    refine (stack_apply _ _ 3 (by show 3 < 8; omega) (by omega) _ rfl rfl p).trans ?_
    rw [steerAccelFixed0_apply, dxFixed0_apply, dyFixed0_apply, sinHeading_apply, cosHeading_apply]
    simp only [state_apply, e0, e1, e2]
    rfl
  | ⟨6, hq⟩ =>
    rw [block_steer _ _ _ _ _ _ _ _ _ _ p ⟨6, hq⟩ ⟨4, by omega⟩ rfl]
    refine (stack_apply _ _ 4 (by show 4 < 8; omega) (by omega) _ rfl rfl p).trans ?_
    rw [steerTurnFixed1_apply, dxFixed1_apply, dyFixed1_apply, speed_apply, sinHeading_apply, cosHeading_apply]
    simp only [state_apply, e0, e1, e2]
    rfl
  | ⟨7, hq⟩ =>
    rw [block_steer _ _ _ _ _ _ _ _ _ _ p ⟨7, hq⟩ ⟨5, by omega⟩ rfl]
    refine (stack_apply _ _ 5 (by show 5 < 8; omega) (by omega) _ rfl rfl p).trans ?_
    rw [steerAccelFixed1_apply, dxFixed1_apply, dyFixed1_apply, sinHeading_apply, cosHeading_apply]
    simp only [state_apply, e0, e1, e2]
    rfl
  | ⟨8, hq⟩ =>
    rw [block_steer _ _ _ _ _ _ _ _ _ _ p ⟨8, hq⟩ ⟨6, by omega⟩ rfl]
    refine (stack_apply _ _ 6 (by show 6 < 8; omega) (by omega) _ rfl rfl p).trans ?_
    rw [steerTurnFixed2_apply, dxFixed2_apply, dyFixed2_apply, speed_apply, sinHeading_apply, cosHeading_apply]
    simp only [state_apply, e0, e1, e2]
    rfl
  | ⟨9, hq⟩ =>
    rw [block_steer _ _ _ _ _ _ _ _ _ _ p ⟨9, hq⟩ ⟨7, by omega⟩ rfl]
    refine (stack_apply _ _ 7 (by show 7 < 8; omega) (by omega) _ rfl rfl p).trans ?_
    rw [steerAccelFixed2_apply, dxFixed2_apply, dyFixed2_apply, sinHeading_apply, cosHeading_apply]
    simp only [state_apply, e0, e1, e2]
    rfl
  | ⟨10, hq⟩ =>
    rw [block_margin _ _ _ _ _ _ _ _ _ _ p ⟨10, hq⟩ ⟨0, by omega⟩ rfl]
    refine (stack_apply _ _ 0 (by show 0 < 4; omega) (by omega) _ rfl rfl p).trans ?_
    rw [marginMoving_apply, penalty0_apply, penalty1_apply, heading_apply, speed_apply, sinHeading_apply, cosHeading_apply, otherHeading_apply, otherSpeed_apply, dx_apply, dy_apply, sinOther_apply, cosOther_apply, gapMoving_apply]
    simp only [state_apply, hidden_apply, e0, e1, e2, e3, e4]
    try rw [e0]
    try rw [e1]
    try rw [e2]
    try rw [e3]
    try rw [e4]
    try rw [e5]
    try rw [e6]
    try rw [e7]
    try rw [e8]
    try rw [e9]
    try rw [e10]
    try rw [e11]
    try rw [e12]
    rfl
  | ⟨11, hq⟩ =>
    rw [block_margin _ _ _ _ _ _ _ _ _ _ p ⟨11, hq⟩ ⟨1, by omega⟩ rfl]
    refine (stack_apply _ _ 1 (by show 1 < 4; omega) (by omega) _ rfl rfl p).trans ?_
    rw [marginFixed0_apply, penalty0_apply, penalty1_apply, dxFixed0_apply, dyFixed0_apply, speed_apply, sinHeading_apply, cosHeading_apply]
    simp only [state_apply, hidden_apply, e0, e1, e2, e3, e4]
    try rw [e0]
    try rw [e1]
    try rw [e2]
    try rw [e3]
    try rw [e4]
    try rw [e5]
    try rw [e6]
    try rw [e7]
    try rw [e8]
    try rw [e9]
    try rw [e10]
    try rw [e11]
    try rw [e12]
    rfl
  | ⟨12, hq⟩ =>
    rw [block_margin _ _ _ _ _ _ _ _ _ _ p ⟨12, hq⟩ ⟨2, by omega⟩ rfl]
    refine (stack_apply _ _ 2 (by show 2 < 4; omega) (by omega) _ rfl rfl p).trans ?_
    rw [marginFixed1_apply, penalty0_apply, penalty1_apply, dxFixed1_apply, dyFixed1_apply, speed_apply, sinHeading_apply, cosHeading_apply]
    simp only [state_apply, hidden_apply, e0, e1, e2, e3, e4]
    try rw [e0]
    try rw [e1]
    try rw [e2]
    try rw [e3]
    try rw [e4]
    try rw [e5]
    try rw [e6]
    try rw [e7]
    try rw [e8]
    try rw [e9]
    try rw [e10]
    try rw [e11]
    try rw [e12]
    rfl
  | ⟨13, hq⟩ =>
    rw [block_margin _ _ _ _ _ _ _ _ _ _ p ⟨13, hq⟩ ⟨3, by omega⟩ rfl]
    refine (stack_apply _ _ 3 (by show 3 < 4; omega) (by omega) _ rfl rfl p).trans ?_
    rw [marginFixed2_apply, penalty0_apply, penalty1_apply, dxFixed2_apply, dyFixed2_apply, speed_apply, sinHeading_apply, cosHeading_apply]
    simp only [state_apply, hidden_apply, e0, e1, e2, e3, e4]
    try rw [e0]
    try rw [e1]
    try rw [e2]
    try rw [e3]
    try rw [e4]
    try rw [e5]
    try rw [e6]
    try rw [e7]
    try rw [e8]
    try rw [e9]
    try rw [e10]
    try rw [e11]
    try rw [e12]
    rfl
  | ⟨n + 14, hq⟩ => exact absurd hq (by omega)

end Cert.KernelIdeal.RowValue

end
-- ==== Proof.KernelOperands.lean ====
/-
  The arrays the kernel's thirteen input windows stage, read at an index as the program's arguments.

  Window 0 moves with the grid: at point t its block is rows 2048 t .. 2048 t + 2047 of the input array. Every
  other window has a constant index map, so its block is the whole of its array at every point. Ten of those arrays
  are written before the grid runs: seven are a vector laid out as a one-row matrix (entry (0, j) is entry j of the
  vector), three are a change of float format, which on the extended reals is the identity. A block's coordinate on
  an axis is always the block index times the block's extent plus the coordinate inside the block.
-/
import proofs.«137691_j87677462381133_2_alg».proof.Proof.Gen.KernelIdeal.Frame
import Idealize.ShloMosaic.Lib.Pipeline.Value
import Idealize.ShloMosaic.Lib.ValueLayout
import Idealize.ShloMosaic.Lib.Tactic

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The index maps, decided over the sixteen grid points -/

/-- The input window's block index at point `t` is `(t, 0)`. -/
theorem index_rows : ∀ t : Fin cfg0.N, win0_0.index t (0 : Fin 2) = t.val ∧ win0_0.index t (1 : Fin 2) = 0 :=
  (by decide +kernel : ∀ t : Fin grid0.N, _)

/-- The block index of the window staging the offset vector is `(0, 0)` at every point. -/
theorem index_offset : ∀ t : Fin cfg0.N, win0_1.index t (0 : Fin 2) = 0 ∧ win0_1.index t (1 : Fin 2) = 0 :=
  (by decide +kernel : ∀ t : Fin grid0.N, _)

/-- The block index of the window staging the scale vector is `(0, 0)` at every point. -/
theorem index_scale : ∀ t : Fin cfg0.N, win0_2.index t (0 : Fin 2) = 0 ∧ win0_2.index t (1 : Fin 2) = 0 :=
  (by decide +kernel : ∀ t : Fin grid0.N, _)

/-- The block index of the window staging the shared layer's weights is `(0, 0)` at every point. -/
theorem index_W1 : ∀ t : Fin cfg0.N, win0_3.index t (0 : Fin 2) = 0 ∧ win0_3.index t (1 : Fin 2) = 0 :=
  (by decide +kernel : ∀ t : Fin grid0.N, _)

/-- The block index of the window staging the shared layer's bias is `(0, 0)` at every point. -/
theorem index_b1 : ∀ t : Fin cfg0.N, win0_4.index t (0 : Fin 2) = 0 ∧ win0_4.index t (1 : Fin 2) = 0 :=
  (by decide +kernel : ∀ t : Fin grid0.N, _)

/-- The block index of the window staging the control branch's weights is `(0, 0)` at every point. -/
theorem index_W21 : ∀ t : Fin cfg0.N, win0_5.index t (0 : Fin 2) = 0 ∧ win0_5.index t (1 : Fin 2) = 0 :=
  (by decide +kernel : ∀ t : Fin grid0.N, _)

/-- The block index of the window staging the control branch's bias is `(0, 0)` at every point. -/
theorem index_b21 : ∀ t : Fin cfg0.N, win0_6.index t (0 : Fin 2) = 0 ∧ win0_6.index t (1 : Fin 2) = 0 :=
  (by decide +kernel : ∀ t : Fin grid0.N, _)

/-- The block index of the window staging the control read-out's weights is `(0, 0)` at every point. -/
theorem index_W31 : ∀ t : Fin cfg0.N, win0_7.index t (0 : Fin 2) = 0 ∧ win0_7.index t (1 : Fin 2) = 0 :=
  (by decide +kernel : ∀ t : Fin grid0.N, _)

/-- The block index of the window staging the control read-out's bias is `(0, 0)` at every point. -/
theorem index_b31 : ∀ t : Fin cfg0.N, win0_8.index t (0 : Fin 2) = 0 ∧ win0_8.index t (1 : Fin 2) = 0 :=
  (by decide +kernel : ∀ t : Fin grid0.N, _)

/-- The block index of the window staging the penalty branch's weights is `(0, 0)` at every point. -/
theorem index_Wobs1 : ∀ t : Fin cfg0.N, win0_9.index t (0 : Fin 2) = 0 ∧ win0_9.index t (1 : Fin 2) = 0 :=
  (by decide +kernel : ∀ t : Fin grid0.N, _)

/-- The block index of the window staging the penalty branch's bias is `(0, 0)` at every point. -/
theorem index_bobs1 : ∀ t : Fin cfg0.N, win0_10.index t (0 : Fin 2) = 0 ∧ win0_10.index t (1 : Fin 2) = 0 :=
  (by decide +kernel : ∀ t : Fin grid0.N, _)

/-- The block index of the window staging the penalty read-out's weights is `(0, 0)` at every point. -/
theorem index_Wobs2 : ∀ t : Fin cfg0.N, win0_11.index t (0 : Fin 2) = 0 ∧ win0_11.index t (1 : Fin 2) = 0 :=
  (by decide +kernel : ∀ t : Fin grid0.N, _)

/-- The block index of the window staging the penalty read-out's bias is `(0, 0)` at every point. -/
theorem index_bobs2 : ∀ t : Fin cfg0.N, win0_12.index t (0 : Fin 2) = 0 ∧ win0_12.index t (1 : Fin 2) = 0 :=
  (by decide +kernel : ∀ t : Fin grid0.N, _)

/-! ## The arrays written before the grid runs -/

/-- The offset vector as a one-row matrix. -/
theorem offset_array (c : Dev nD) : (V m c main_v0 : S1x20.Idx → EReal)
    = shapeCast S1x20 (m ((c : Thread nD τ).loc main_arg2) : S20.Idx → EReal) shapeCasts_S20_S1x20 := by
  dsimp only [Gen.V, Gen.hostOps0]; after_results; rfl

/-- The scale vector as a one-row matrix. -/
theorem scale_array (c : Dev nD) : (V m c main_v1 : S1x20.Idx → EReal)
    = shapeCast S1x20 (m ((c : Thread nD τ).loc main_arg3) : S20.Idx → EReal) shapeCasts_S20_S1x20 := by
  dsimp only [Gen.V, Gen.hostOps0]; after_results; rfl

/-- The shared layer's weights after the change of float format: unchanged. -/
theorem W1_array (c : Dev nD) : (V m c main_v7 : S1024x20.Idx → EReal)
    = (m ((c : Thread nD τ).loc main_arg4) : S1024x20.Idx → EReal) := by
  dsimp only [Gen.V, Gen.hostOps0]; after_results; rfl

/-- The shared layer's bias as a one-row matrix. -/
theorem b1_array (c : Dev nD) : (V m c main_v2 : S1x1024.Idx → EReal)
    = shapeCast S1x1024 (m ((c : Thread nD τ).loc main_arg5) : S1024.Idx → EReal) shapeCasts_S1024_S1x1024 := by
  dsimp only [Gen.V, Gen.hostOps0]; after_results; rfl

/-- The control branch's weights after the change of float format: unchanged. -/
theorem W21_array (c : Dev nD) : (V m c main_v8 : S512x1024.Idx → EReal)
    = (m ((c : Thread nD τ).loc main_arg6) : S512x1024.Idx → EReal) := by
  dsimp only [Gen.V, Gen.hostOps0]; after_results; rfl

/-- The control branch's bias as a one-row matrix. -/
theorem b21_array (c : Dev nD) : (V m c main_v3 : S1x512.Idx → EReal)
    = shapeCast S1x512 (m ((c : Thread nD τ).loc main_arg7) : S512.Idx → EReal) shapeCasts_S512_S1x512 := by
  dsimp only [Gen.V, Gen.hostOps0]; after_results; rfl

/-- The control read-out's bias as a one-row matrix. -/
theorem b31_array (c : Dev nD) : (V m c main_v4 : S1x2.Idx → EReal)
    = shapeCast S1x2 (m ((c : Thread nD τ).loc main_arg9) : S2.Idx → EReal) shapeCasts_S2_S1x2 := by
  dsimp only [Gen.V, Gen.hostOps0]; after_results; rfl

/-- The penalty branch's weights after the change of float format: unchanged. -/
theorem Wobs1_array (c : Dev nD) : (V m c main_v9 : S512x1024.Idx → EReal)
    = (m ((c : Thread nD τ).loc main_arg10) : S512x1024.Idx → EReal) := by
  dsimp only [Gen.V, Gen.hostOps0]; after_results; rfl

/-- The penalty branch's bias as a one-row matrix. -/
theorem bobs1_array (c : Dev nD) : (V m c main_v5 : S1x512.Idx → EReal)
    = shapeCast S1x512 (m ((c : Thread nD τ).loc main_arg11) : S512.Idx → EReal) shapeCasts_S512_S1x512 := by
  dsimp only [Gen.V, Gen.hostOps0]; after_results; rfl

/-- The penalty read-out's bias as a one-row matrix. -/
theorem bobs2_array (c : Dev nD) : (V m c main_v6 : S1x2.Idx → EReal)
    = shapeCast S1x2 (m ((c : Thread nD τ).loc main_arg13) : S2.Idx → EReal) shapeCasts_S2_S1x2 := by
  dsimp only [Gen.V, Gen.hostOps0]; after_results; rfl

/-! ## The blocks -/

/-- The input window's block at point `t`, at `(p, j)`, is the input array at `(2048 t + p, j)`. -/
theorem rows_block (c : Dev nD) (t : Fin cfg0.N) (p : Fin 2048) (j : Fin 20) (r : Fin 32768)
    (hr : r.val = 2048 * t.val + p.val) :
    (iblk m c 0 t : Vec Ideal S2048x20 .f32) (ix2 p j)
      = (m ((c : Thread nD τ).loc main_arg0) : S32768x20.Idx → EReal) (ix2 r j) := by
  obtain ⟨h0, h1⟩ := index_rows t
  unfold iblk
  rw [View.read_apply]
  show V m c main_arg0 _ = m (c.tc.loc main_arg0) _
  rw [V_main_arg0]
  congr 1
  funext d
  apply Fin.ext
  match d with
  | ⟨0, _⟩ => show win0_0.index t 0 * 2048 + 1 * p.val = r.val; rw [h0, hr]; omega
  | ⟨1, _⟩ => show win0_0.index t 1 * 20 + 1 * j.val = j.val; rw [h1]; omega

/-- The block staging the offset vector, at `(u, j)`, is entry `j` of the vector. -/
theorem offset_block (c : Dev nD) (t : Fin cfg0.N) (u : Fin 1) (j : Fin 20) :
    (iblk m c 1 t : Vec Ideal S1x20 .f32) (ix2 u j)
      = (m ((c : Thread nD τ).loc main_arg2) : S20.Idx → EReal) (ix1 j) := by
  obtain ⟨h0, h1⟩ := index_offset t
  have e : (((cfg0.win 1).blk t).view.emb (ix2 u j) : S1x20.Idx) = ix2 u j := by
    funext d
    apply Fin.ext
    match d with
    | ⟨0, _⟩ => show win0_1.index t 0 * 1 + 1 * u.val = u.val; rw [h0]; omega
    | ⟨1, _⟩ => show win0_1.index t 1 * 20 + 1 * j.val = j.val; rw [h1]; omega
  unfold iblk
  rw [View.read_apply]
  show (V m c main_v0 : S1x20.Idx → EReal) (((cfg0.win 1).blk t).view.emb (ix2 u j)) = _
  rw [e, offset_array]
  exact shapeCast_a_1a_apply _ _ u j

/-- The block staging the scale vector, at `(u, j)`, is entry `j` of the vector. -/
theorem scale_block (c : Dev nD) (t : Fin cfg0.N) (u : Fin 1) (j : Fin 20) :
    (iblk m c 2 t : Vec Ideal S1x20 .f32) (ix2 u j)
      = (m ((c : Thread nD τ).loc main_arg3) : S20.Idx → EReal) (ix1 j) := by
  obtain ⟨h0, h1⟩ := index_scale t
  have e : (((cfg0.win 2).blk t).view.emb (ix2 u j) : S1x20.Idx) = ix2 u j := by
    funext d
    apply Fin.ext
    match d with
    | ⟨0, _⟩ => show win0_2.index t 0 * 1 + 1 * u.val = u.val; rw [h0]; omega
    | ⟨1, _⟩ => show win0_2.index t 1 * 20 + 1 * j.val = j.val; rw [h1]; omega
  unfold iblk
  rw [View.read_apply]
  show (V m c main_v1 : S1x20.Idx → EReal) (((cfg0.win 2).blk t).view.emb (ix2 u j)) = _
  rw [e, scale_array]
  exact shapeCast_a_1a_apply _ _ u j

/-- The block staging the shared layer's weights, at `(a, k)`, is the array at `(a, k)`. -/
theorem W1_block (c : Dev nD) (t : Fin cfg0.N) (a : Fin 1024) (k : Fin 20) :
    (iblk m c 3 t : Vec Ideal S1024x20 .bf16) (ix2 a k)
      = (m ((c : Thread nD τ).loc main_arg4) : S1024x20.Idx → EReal) (ix2 a k) := by
  obtain ⟨h0, h1⟩ := index_W1 t
  have e : (((cfg0.win 3).blk t).view.emb (ix2 a k) : S1024x20.Idx) = ix2 a k := by
    funext d
    apply Fin.ext
    match d with
    | ⟨0, _⟩ => show win0_3.index t 0 * 1024 + 1 * a.val = a.val; rw [h0]; omega
    | ⟨1, _⟩ => show win0_3.index t 1 * 20 + 1 * k.val = k.val; rw [h1]; omega
  unfold iblk
  rw [View.read_apply]
  show (V m c main_v7 : S1024x20.Idx → EReal) (((cfg0.win 3).blk t).view.emb (ix2 a k)) = _
  rw [e, W1_array]

/-- The block staging the shared layer's bias, at `(u, j)`, is entry `j` of the vector. -/
theorem b1_block (c : Dev nD) (t : Fin cfg0.N) (u : Fin 1) (j : Fin 1024) :
    (iblk m c 4 t : Vec Ideal S1x1024 .f32) (ix2 u j)
      = (m ((c : Thread nD τ).loc main_arg5) : S1024.Idx → EReal) (ix1 j) := by
  obtain ⟨h0, h1⟩ := index_b1 t
  have e : (((cfg0.win 4).blk t).view.emb (ix2 u j) : S1x1024.Idx) = ix2 u j := by
    funext d
    apply Fin.ext
    match d with
    | ⟨0, _⟩ => show win0_4.index t 0 * 1 + 1 * u.val = u.val; rw [h0]; omega
    | ⟨1, _⟩ => show win0_4.index t 1 * 1024 + 1 * j.val = j.val; rw [h1]; omega
  unfold iblk
  rw [View.read_apply]
  show (V m c main_v2 : S1x1024.Idx → EReal) (((cfg0.win 4).blk t).view.emb (ix2 u j)) = _
  rw [e, b1_array]
  exact shapeCast_a_1a_apply _ _ u j

/-- The block staging the control branch's weights, at `(a, k)`, is the array at `(a, k)`. -/
theorem W21_block (c : Dev nD) (t : Fin cfg0.N) (a : Fin 512) (k : Fin 1024) :
    (iblk m c 5 t : Vec Ideal S512x1024 .bf16) (ix2 a k)
      = (m ((c : Thread nD τ).loc main_arg6) : S512x1024.Idx → EReal) (ix2 a k) := by
  obtain ⟨h0, h1⟩ := index_W21 t
  have e : (((cfg0.win 5).blk t).view.emb (ix2 a k) : S512x1024.Idx) = ix2 a k := by
    funext d
    apply Fin.ext
    match d with
    | ⟨0, _⟩ => show win0_5.index t 0 * 512 + 1 * a.val = a.val; rw [h0]; omega
    | ⟨1, _⟩ => show win0_5.index t 1 * 1024 + 1 * k.val = k.val; rw [h1]; omega
  unfold iblk
  rw [View.read_apply]
  show (V m c main_v8 : S512x1024.Idx → EReal) (((cfg0.win 5).blk t).view.emb (ix2 a k)) = _
  rw [e, W21_array]

/-- The block staging the control branch's bias, at `(u, j)`, is entry `j` of the vector. -/
theorem b21_block (c : Dev nD) (t : Fin cfg0.N) (u : Fin 1) (j : Fin 512) :
    (iblk m c 6 t : Vec Ideal S1x512 .f32) (ix2 u j)
      = (m ((c : Thread nD τ).loc main_arg7) : S512.Idx → EReal) (ix1 j) := by
  obtain ⟨h0, h1⟩ := index_b21 t
  have e : (((cfg0.win 6).blk t).view.emb (ix2 u j) : S1x512.Idx) = ix2 u j := by
    funext d
    apply Fin.ext
    match d with
    | ⟨0, _⟩ => show win0_6.index t 0 * 1 + 1 * u.val = u.val; rw [h0]; omega
    | ⟨1, _⟩ => show win0_6.index t 1 * 512 + 1 * j.val = j.val; rw [h1]; omega
  unfold iblk
  rw [View.read_apply]
  show (V m c main_v3 : S1x512.Idx → EReal) (((cfg0.win 6).blk t).view.emb (ix2 u j)) = _
  rw [e, b21_array]
  exact shapeCast_a_1a_apply _ _ u j

/-- The block staging the control read-out's weights, at `(a, k)`, is the array at `(a, k)`. -/
theorem W31_block (c : Dev nD) (t : Fin cfg0.N) (a : Fin 2) (k : Fin 512) :
    (iblk m c 7 t : Vec Ideal S2x512 .f32) (ix2 a k)
      = (m ((c : Thread nD τ).loc main_arg8) : S2x512.Idx → EReal) (ix2 a k) := by
  obtain ⟨h0, h1⟩ := index_W31 t
  have e : (((cfg0.win 7).blk t).view.emb (ix2 a k) : S2x512.Idx) = ix2 a k := by
    funext d
    apply Fin.ext
    match d with
    | ⟨0, _⟩ => show win0_7.index t 0 * 2 + 1 * a.val = a.val; rw [h0]; omega
    | ⟨1, _⟩ => show win0_7.index t 1 * 512 + 1 * k.val = k.val; rw [h1]; omega
  unfold iblk
  rw [View.read_apply]
  show (V m c main_arg8 : S2x512.Idx → EReal) (((cfg0.win 7).blk t).view.emb (ix2 a k)) = _
  rw [e, V_main_arg8]

/-- The block staging the control read-out's bias, at `(u, j)`, is entry `j` of the vector. -/
theorem b31_block (c : Dev nD) (t : Fin cfg0.N) (u : Fin 1) (j : Fin 2) :
    (iblk m c 8 t : Vec Ideal S1x2 .f32) (ix2 u j)
      = (m ((c : Thread nD τ).loc main_arg9) : S2.Idx → EReal) (ix1 j) := by
  obtain ⟨h0, h1⟩ := index_b31 t
  have e : (((cfg0.win 8).blk t).view.emb (ix2 u j) : S1x2.Idx) = ix2 u j := by
    funext d
    apply Fin.ext
    match d with
    | ⟨0, _⟩ => show win0_8.index t 0 * 1 + 1 * u.val = u.val; rw [h0]; omega
    | ⟨1, _⟩ => show win0_8.index t 1 * 2 + 1 * j.val = j.val; rw [h1]; omega
  unfold iblk
  rw [View.read_apply]
  show (V m c main_v4 : S1x2.Idx → EReal) (((cfg0.win 8).blk t).view.emb (ix2 u j)) = _
  rw [e, b31_array]
  exact shapeCast_a_1a_apply _ _ u j

/-- The block staging the penalty branch's weights, at `(a, k)`, is the array at `(a, k)`. -/
theorem Wobs1_block (c : Dev nD) (t : Fin cfg0.N) (a : Fin 512) (k : Fin 1024) :
    (iblk m c 9 t : Vec Ideal S512x1024 .bf16) (ix2 a k)
      = (m ((c : Thread nD τ).loc main_arg10) : S512x1024.Idx → EReal) (ix2 a k) := by
  obtain ⟨h0, h1⟩ := index_Wobs1 t
  have e : (((cfg0.win 9).blk t).view.emb (ix2 a k) : S512x1024.Idx) = ix2 a k := by
    funext d
    apply Fin.ext
    match d with
    | ⟨0, _⟩ => show win0_9.index t 0 * 512 + 1 * a.val = a.val; rw [h0]; omega
    | ⟨1, _⟩ => show win0_9.index t 1 * 1024 + 1 * k.val = k.val; rw [h1]; omega
  unfold iblk
  rw [View.read_apply]
  show (V m c main_v9 : S512x1024.Idx → EReal) (((cfg0.win 9).blk t).view.emb (ix2 a k)) = _
  rw [e, Wobs1_array]

/-- The block staging the penalty branch's bias, at `(u, j)`, is entry `j` of the vector. -/
theorem bobs1_block (c : Dev nD) (t : Fin cfg0.N) (u : Fin 1) (j : Fin 512) :
    (iblk m c 10 t : Vec Ideal S1x512 .f32) (ix2 u j)
      = (m ((c : Thread nD τ).loc main_arg11) : S512.Idx → EReal) (ix1 j) := by
  obtain ⟨h0, h1⟩ := index_bobs1 t
  have e : (((cfg0.win 10).blk t).view.emb (ix2 u j) : S1x512.Idx) = ix2 u j := by
    funext d
    apply Fin.ext
    match d with
    | ⟨0, _⟩ => show win0_10.index t 0 * 1 + 1 * u.val = u.val; rw [h0]; omega
    | ⟨1, _⟩ => show win0_10.index t 1 * 512 + 1 * j.val = j.val; rw [h1]; omega
  unfold iblk
  rw [View.read_apply]
  show (V m c main_v5 : S1x512.Idx → EReal) (((cfg0.win 10).blk t).view.emb (ix2 u j)) = _
  rw [e, bobs1_array]
  exact shapeCast_a_1a_apply _ _ u j

/-- The block staging the penalty read-out's weights, at `(a, k)`, is the array at `(a, k)`. -/
theorem Wobs2_block (c : Dev nD) (t : Fin cfg0.N) (a : Fin 2) (k : Fin 512) :
    (iblk m c 11 t : Vec Ideal S2x512 .f32) (ix2 a k)
      = (m ((c : Thread nD τ).loc main_arg12) : S2x512.Idx → EReal) (ix2 a k) := by
  obtain ⟨h0, h1⟩ := index_Wobs2 t
  have e : (((cfg0.win 11).blk t).view.emb (ix2 a k) : S2x512.Idx) = ix2 a k := by
    funext d
    apply Fin.ext
    match d with
    | ⟨0, _⟩ => show win0_11.index t 0 * 2 + 1 * a.val = a.val; rw [h0]; omega
    | ⟨1, _⟩ => show win0_11.index t 1 * 512 + 1 * k.val = k.val; rw [h1]; omega
  unfold iblk
  rw [View.read_apply]
  show (V m c main_arg12 : S2x512.Idx → EReal) (((cfg0.win 11).blk t).view.emb (ix2 a k)) = _
  rw [e, V_main_arg12]

/-- The block staging the penalty read-out's bias, at `(u, j)`, is entry `j` of the vector. -/
theorem bobs2_block (c : Dev nD) (t : Fin cfg0.N) (u : Fin 1) (j : Fin 2) :
    (iblk m c 12 t : Vec Ideal S1x2 .f32) (ix2 u j)
      = (m ((c : Thread nD τ).loc main_arg13) : S2.Idx → EReal) (ix1 j) := by
  obtain ⟨h0, h1⟩ := index_bobs2 t
  have e : (((cfg0.win 12).blk t).view.emb (ix2 u j) : S1x2.Idx) = ix2 u j := by
    funext d
    apply Fin.ext
    match d with
    | ⟨0, _⟩ => show win0_12.index t 0 * 1 + 1 * u.val = u.val; rw [h0]; omega
    | ⟨1, _⟩ => show win0_12.index t 1 * 2 + 1 * j.val = j.val; rw [h1]; omega
  unfold iblk
  rw [View.read_apply]
  show (V m c main_v6 : S1x2.Idx → EReal) (((cfg0.win 12).blk t).view.emb (ix2 u j)) = _
  rw [e, bobs2_array]
  exact shapeCast_a_1a_apply _ _ u j

end Cert.KernelIdeal.ArrayValue

end
-- ==== Proof.KernelResult.lean ====
/-
  From the kernel's blocks to its whole result array.

  The grid has sixteen points; point t writes back rows 2048 t .. 2048 t + 2047 of the result, all fourteen columns.
  Entry (p, q) of the block point t writes is output q of the row function applied to row p of the staged input
  block and to the staged weights; read through the windows, that is output q of row 2048 t + p of the whole input
  array with the weights as the program was given them. Row r of the result lies in the block of point r / 2048, so
  the sixteen blocks cover the array, and the array ends holding the specification at every index.
-/
import proofs.«137691_j87677462381133_2_alg».proof.Proof.Gen.KernelIdeal.Value
import proofs.«137691_j87677462381133_2_alg».proof.Proof.Spec
import proofs.«137691_j87677462381133_2_alg».proof.Proof.KernelRow
import proofs.«137691_j87677462381133_2_alg».proof.Proof.KernelOperands

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specification's result array of the program's arguments on core `c`. -/
abbrev resultOf (c : Dev nD) : S32768x14.Idx → EReal :=
  Cert.Controller.result (m ((c.tc : Thread nD τ).loc main_arg0))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))

/-- The row function takes equal values on pointwise equal arguments. -/
theorem row_congr {x x' mean mean' std std' : Fin 20 → EReal} {W1 W1' : Fin 1024 → Fin 20 → EReal}
    {b1 b1' : Fin 1024 → EReal} {W21 W21' : Fin 512 → Fin 1024 → EReal} {b21 b21' : Fin 512 → EReal}
    {W31 W31' : Fin 2 → Fin 512 → EReal} {b31 b31' : Fin 2 → EReal} {Wobs1 Wobs1' : Fin 512 → Fin 1024 → EReal}
    {bobs1 bobs1' : Fin 512 → EReal} {Wobs2 Wobs2' : Fin 2 → Fin 512 → EReal} {bobs2 bobs2' : Fin 2 → EReal}
    (hx : ∀ j, x j = x' j) (hmean : ∀ j, mean j = mean' j) (hstd : ∀ j, std j = std' j)
    (hW1 : ∀ a k, W1 a k = W1' a k) (hb1 : ∀ a, b1 a = b1' a) (hW21 : ∀ a k, W21 a k = W21' a k)
    (hb21 : ∀ a, b21 a = b21' a) (hW31 : ∀ a k, W31 a k = W31' a k) (hb31 : ∀ a, b31 a = b31' a)
    (hWobs1 : ∀ a k, Wobs1 a k = Wobs1' a k) (hbobs1 : ∀ a, bobs1 a = bobs1' a)
    (hWobs2 : ∀ a k, Wobs2 a k = Wobs2' a k) (hbobs2 : ∀ a, bobs2 a = bobs2' a) (q : Fin 14) :
    Cert.Controller.row x mean std W1 b1 W21 b21 W31 b31 Wobs1 bobs1 Wobs2 bobs2 q
      = Cert.Controller.row x' mean' std' W1' b1' W21' b21' W31' b31' Wobs1' bobs1' Wobs2' bobs2' q := by
  obtain rfl : x = x' := funext hx
  obtain rfl : mean = mean' := funext hmean
  obtain rfl : std = std' := funext hstd
  obtain rfl : W1 = W1' := funext fun a => funext (hW1 a)
  obtain rfl : b1 = b1' := funext hb1
  obtain rfl : W21 = W21' := funext fun a => funext (hW21 a)
  obtain rfl : b21 = b21' := funext hb21
  obtain rfl : W31 = W31' := funext fun a => funext (hW31 a)
  obtain rfl : b31 = b31' := funext hb31
  obtain rfl : Wobs1 = Wobs1' := funext fun a => funext (hWobs1 a)
  obtain rfl : bobs1 = bobs1' := funext hbobs1
  obtain rfl : Wobs2 = Wobs2' := funext fun a => funext (hWobs2 a)
  obtain rfl : bobs2 = bobs2' := funext hbobs2
  rfl

/-! ## What one point writes back -/

/-- The result window's block index at point `t` is `(t, 0)`. -/
theorem index_result : ∀ t : Fin cfg0.N, win0_13.index t (0 : Fin 2) = t.val ∧ win0_13.index t (1 : Fin 2) = 0 :=
  (by decide +kernel : ∀ t : Fin grid0.N, _)

/-- Entry `(p, q)` of the block the body leaves at point `t` is the specification at `(2048 t + p, q)`. -/
theorem block_entry (c : Dev nD) (t : Fin cfg0.N) (p : Fin 2048) (q : Fin 14) (r : Fin 32768)
    (hr : r.val = 2048 * t.val + p.val) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p q)
      = resultOf m c (ix2 r q) :=
  (RowValue.block_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p q).trans
    (row_congr (fun j => rows_block m c t p j r hr) (fun j => offset_block m c t 0 j) (fun j => scale_block m c t 0 j)
      (fun a k => W1_block m c t a k) (fun a => b1_block m c t 0 a) (fun a k => W21_block m c t a k)
      (fun a => b21_block m c t 0 a) (fun a k => W31_block m c t a k) (fun a => b31_block m c t 0 a)
      (fun a k => Wobs1_block m c t a k) (fun a => bobs1_block m c t 0 a) (fun a k => Wobs2_block m c t a k)
      (fun a => bobs2_block m c t 0 a) q)

/-- What point `t` writes back is block `t` of the specification's result array. -/
theorem flushed_eq (c : Dev nD) (t : Fin cfg0.N) :
    (dats m 0 c).flushed 13 t = ((cfg0.win 13).blk t).view.read (Elt Ideal) (resultOf m c) := by
  rw [Value.flushed13]
  obtain ⟨h0, h1⟩ := index_result t
  have ht : t.val < 16 := lt_of_lt_of_eq t.isLt (show cfg0.N = 16 from N_0)
  refine funext fun (y : S2048x14.Idx) => ?_
  obtain ⟨p, q, rfl⟩ : ∃ (p : Fin 2048) (q : Fin 14), y = ix2 p q := ⟨y 0, y 1, eq_ix2 y⟩
  have e : (((cfg0.win 13).blk t).view.emb (ix2 p q) : S32768x14.Idx)
      = ix2 (⟨2048 * t.val + p.val, by have := p.isLt; omega⟩ : Fin 32768) q := by
    funext d
    apply Fin.ext
    match d with
    | ⟨0, _⟩ => show win0_13.index t 0 * 2048 + 1 * p.val = 2048 * t.val + p.val; rw [h0]; omega
    | ⟨1, _⟩ => show win0_13.index t 1 * 14 + 1 * q.val = q.val; rw [h1]; omega
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p q)
    = resultOf m c (((cfg0.win 13).blk t).view.emb (ix2 p q))
  rw [e]
  exact block_entry m c t p q _ rfl

/-! ## The blocks cover the array -/

/-- An index of the result array is in point `t`'s block iff each coordinate is in the block's range on its axis. -/
theorem mem_blk (t : Fin cfg0.N) (i : S32768x14.Idx) :
    i ∈ ((cfg0.win 13).blk t).view.set ↔ ∀ a : Fin 2, win0_13.index t a * S2048x14.size a ≤ (i a).val
      ∧ (i a).val < win0_13.index t a * S2048x14.size a + S2048x14.size a := by
  show i ∈ ((View.whole main_v10).slice (win0_13.rect t)).set ↔ _
  rw [View.set_slice_whole, Rect.mem_set_unit]
  exact Iff.rfl

/-- Row `r` of the result lies in the block of point `r / 2048`, which writes back. -/
theorem cover (i : S32768x14.Idx) :
    ∃ t : Fin cfg0.N, (cfg0.win 13).flush t = true ∧ i ∈ ((cfg0.win 13).blk t).view.set := by
  have hi0 : (i 0).val < 32768 := (i 0).isLt
  have hi1 : (i 1).val < 14 := (i 1).isLt
  obtain ⟨t, ht⟩ : ∃ t : Fin cfg0.N, t.val = (i 0).val / 2048 :=
    ⟨⟨(i 0).val / 2048, by rw [show cfg0.N = 16 from N_0]; omega⟩, rfl⟩
  obtain ⟨h0, h1⟩ := index_result t
  refine ⟨t, flush0_13 t, ?_⟩
  rw [mem_blk]
  intro a
  match a with
  | ⟨0, _⟩ =>
    show win0_13.index t 0 * 2048 ≤ (i 0).val ∧ (i 0).val < win0_13.index t 0 * 2048 + 2048
    rw [h0, ht]; omega
  | ⟨1, _⟩ =>
    show win0_13.index t 1 * 14 ≤ (i 1).val ∧ (i 1).val < win0_13.index t 1 * 14 + 14
    rw [h1]; omega

/-! ## The array after the run, and the run -/

/-- The result array after the run is the specification's. -/
theorem final (c : Dev nD) : (dats m 0 c).arrAt 13 cfg0.N = resultOf m c :=
  (dats m 0 c).arrAt_eq_of_cover 13 (resultOf m c) (fun t _ => flushed_eq m c t) cover

/-- The kernel's run: the result array at the specification of the arguments, every argument unchanged. -/
theorem run : θ_run (defs (F := Ideal)) (onTc (τ := τ) (main (F := Ideal))) ⟨m, fun _ => 0, ρ⟩ fun r => ∀ c : Dev nD,
      r.2.mem ((c.tc : Thread nD τ).loc main_v10)
        = Cert.Controller.result (m ((c.tc : Thread nD τ).loc main_arg0))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨(h c).1.trans (final m c), (h c).2⟩) (Value.run_blocks m ρ)

end Cert.KernelIdeal.ArrayValue

end
-- ==== Proof.ReferenceNetwork.lean ====
/-
  The reference's network stages read at one row and one coordinate: the de-normalised state, the shared hidden layer,
  the two heads' own hidden layers, the nominal control and the two penalties are, entry by entry, the functions of
  the specification applied to that row of the input array and to the weight arrays.

  Each stage is a dense layer: a contraction over the previous layer's coordinate against a transposed weight array,
  a bias broadcast along the rows, and (but for the read-outs) the larger of the result and zero. The contraction's
  terms are identified one by one with the specification's, so no property of sums is used. The penalties end with
  the logistic function spelt out as one over one plus the exponential of the negated argument, which is the
  logistic's own definition once the word for one is read as the extended real one.
-/
import proofs.«137691_j87677462381133_2_alg».proof.Proof.Gen.ReferenceIdeal.Read
import proofs.«137691_j87677462381133_2_alg».proof.Proof.Spec
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx

variable (x0 : (⟨S32768x20, .f32⟩ : BufTy).Contents (Elt Ideal)) (x2 x3 : (⟨S20, .f32⟩ : BufTy).Contents (Elt Ideal))
  (x4 : (⟨S1024x20, .f32⟩ : BufTy).Contents (Elt Ideal)) (x5 : (⟨S1024, .f32⟩ : BufTy).Contents (Elt Ideal))
  (x6 : (⟨S512x1024, .f32⟩ : BufTy).Contents (Elt Ideal)) (x7 : (⟨S512, .f32⟩ : BufTy).Contents (Elt Ideal))
  (x8 : (⟨S2x512, .f32⟩ : BufTy).Contents (Elt Ideal)) (x9 : (⟨S2, .f32⟩ : BufTy).Contents (Elt Ideal))
  (x10 : (⟨S512x1024, .f32⟩ : BufTy).Contents (Elt Ideal)) (x11 : (⟨S512, .f32⟩ : BufTy).Contents (Elt Ideal))
  (x12 : (⟨S2x512, .f32⟩ : BufTy).Contents (Elt Ideal)) (x13 : (⟨S2, .f32⟩ : BufTy).Contents (Elt Ideal))

/-- The state of row `r`, as the specification computes it from that row of the input array. -/
abbrev stateOf (r : Fin 32768) : Fin 20 → EReal :=
  Cert.Controller.state (fun j => x0 (ix2 r j)) (fun j => x2 (ix1 j)) (fun j => x3 (ix1 j))

/-- The shared hidden layer of row `r`. -/
abbrev hiddenOf (r : Fin 32768) : Fin 1024 → EReal :=
  Cert.Controller.hidden (fun j => x0 (ix2 r j)) (fun a k => x4 (ix2 a k)) (fun a => x5 (ix1 a))

/-- The de-normalised state: input times scale plus offset. -/
theorem state_apply (r : Fin 32768) (j : Fin 20) :
    val_main_v5 (F := Ideal) x0 x2 x3 (ix2 r j) = stateOf x0 x2 x3 r j := by
  have e0 : idx_main_v0 (idx_main_v1 (ix2 r j)) = ix1 j :=
    funext fun a => Fin.ext (by match a with | ⟨0, _⟩ => rfl)
  have e3 : idx_main_v3 (idx_main_v4 (ix2 r j)) = ix1 j :=
    funext fun a => Fin.ext (by match a with | ⟨0, _⟩ => rfl)
  rw [val_main_v5_apply, val_main_v2_apply, val_main_v1_apply, val_main_v0_apply, val_main_v4_apply,
    val_main_v3_apply, e0, e3]
  rfl

/-- The shared hidden layer: the rectified dense layer over the row's inputs. -/
theorem hidden_apply (r : Fin 32768) (a : Fin 1024) :
    val_main_v11 (F := Ideal) x0 x4 x5 (ix2 r a) = hiddenOf x0 x4 x5 r a := by
  have es : ∀ k : Fin 20, x0 (lidx_main_v7 (ix2 r a) k) * val_main_v6 (F := Ideal) x4 (ridx_main_v7 (ix2 r a) k)
      = x0 (ix2 r k) * x4 (ix2 a k) := fun k => by
    have el : lidx_main_v7 (ix2 r a) k = ix2 r k :=
      funext fun b => Fin.ext (by match b with | ⟨0, _⟩ => rfl | ⟨1, _⟩ => rfl)
    have er : idx_main_v6 (ridx_main_v7 (ix2 r a) k) = ix2 a k :=
      funext fun b => Fin.ext (by match b with | ⟨0, _⟩ => rfl | ⟨1, _⟩ => rfl)
    rw [val_main_v6_apply, el, er]
  have eb : idx_main_v8 (idx_main_v9 (ix2 r a)) = ix1 a :=
    funext fun b => Fin.ext (by match b with | ⟨0, _⟩ => rfl)
  rw [val_main_v11_apply, val_main_v10_apply, val_main_v7_apply, val_main_v9_apply, val_main_v8_apply,
    val_main_call0_v0_apply, val_main_call0_cst_apply, Finset.sum_congr rfl (fun k _ => es k), eb]
  rfl

/-- The control head's own hidden layer over the shared one. -/
theorem branch_control_apply (r : Fin 32768) (a : Fin 512) :
    val_main_v17 (F := Ideal) x0 x4 x5 x6 x7 (ix2 r a)
      = Cert.Controller.branch (hiddenOf x0 x4 x5 r) (fun a k => x6 (ix2 a k)) (fun a => x7 (ix1 a)) a := by
  have es : ∀ k : Fin 1024, val_main_v11 (F := Ideal) x0 x4 x5 (lidx_main_v13 (ix2 r a) k)
        * val_main_v12 (F := Ideal) x6 (ridx_main_v13 (ix2 r a) k)
      = hiddenOf x0 x4 x5 r k * x6 (ix2 a k) := fun k => by
    have el : lidx_main_v13 (ix2 r a) k = ix2 r k :=
      funext fun b => Fin.ext (by match b with | ⟨0, _⟩ => rfl | ⟨1, _⟩ => rfl)
    have er : idx_main_v12 (ridx_main_v13 (ix2 r a) k) = ix2 a k :=
      funext fun b => Fin.ext (by match b with | ⟨0, _⟩ => rfl | ⟨1, _⟩ => rfl)
    rw [val_main_v12_apply, el, er, hidden_apply]
  have eb : idx_main_v14 (idx_main_v15 (ix2 r a)) = ix1 a :=
    funext fun b => Fin.ext (by match b with | ⟨0, _⟩ => rfl)
  rw [val_main_v17_apply, val_main_v16_apply, val_main_v13_apply, val_main_v15_apply, val_main_v14_apply,
    val_main_call1_v0_apply, val_main_call1_cst_apply, Finset.sum_congr rfl (fun k _ => es k), eb]
  rfl

/-- The nominal control: the linear read-out of its head's hidden layer. -/
theorem control_apply (r : Fin 32768) (a : Fin 2) :
    val_main_v22 (F := Ideal) x0 x4 x5 x6 x7 x8 x9 (ix2 r a)
      = Cert.Controller.control (hiddenOf x0 x4 x5 r) (fun a k => x6 (ix2 a k)) (fun a => x7 (ix1 a))
          (fun a k => x8 (ix2 a k)) (fun a => x9 (ix1 a)) a := by
  have es : ∀ k : Fin 512, val_main_v17 (F := Ideal) x0 x4 x5 x6 x7 (lidx_main_v19 (ix2 r a) k)
        * val_main_v18 (F := Ideal) x8 (ridx_main_v19 (ix2 r a) k)
      = Cert.Controller.branch (hiddenOf x0 x4 x5 r) (fun a k => x6 (ix2 a k)) (fun a => x7 (ix1 a)) k
        * x8 (ix2 a k) := fun k => by
    have el : lidx_main_v19 (ix2 r a) k = ix2 r k :=
      funext fun b => Fin.ext (by match b with | ⟨0, _⟩ => rfl | ⟨1, _⟩ => rfl)
    have er : idx_main_v18 (ridx_main_v19 (ix2 r a) k) = ix2 a k :=
      funext fun b => Fin.ext (by match b with | ⟨0, _⟩ => rfl | ⟨1, _⟩ => rfl)
    rw [val_main_v18_apply, el, er, branch_control_apply]
  have eb : idx_main_v20 (idx_main_v21 (ix2 r a)) = ix1 a :=
    funext fun b => Fin.ext (by match b with | ⟨0, _⟩ => rfl)
  rw [val_main_v22_apply, val_main_v19_apply, val_main_v21_apply, val_main_v20_apply,
    Finset.sum_congr rfl (fun k _ => es k), eb]
  rfl

/-- The penalty head's own hidden layer over the shared one. -/
theorem branch_penalty_apply (r : Fin 32768) (a : Fin 512) :
    val_main_v28 (F := Ideal) x0 x4 x5 x10 x11 (ix2 r a)
      = Cert.Controller.branch (hiddenOf x0 x4 x5 r) (fun a k => x10 (ix2 a k)) (fun a => x11 (ix1 a)) a := by
  have es : ∀ k : Fin 1024, val_main_v11 (F := Ideal) x0 x4 x5 (lidx_main_v24 (ix2 r a) k)
        * val_main_v23 (F := Ideal) x10 (ridx_main_v24 (ix2 r a) k)
      = hiddenOf x0 x4 x5 r k * x10 (ix2 a k) := fun k => by
    have el : lidx_main_v24 (ix2 r a) k = ix2 r k :=
      funext fun b => Fin.ext (by match b with | ⟨0, _⟩ => rfl | ⟨1, _⟩ => rfl)
    have er : idx_main_v23 (ridx_main_v24 (ix2 r a) k) = ix2 a k :=
      funext fun b => Fin.ext (by match b with | ⟨0, _⟩ => rfl | ⟨1, _⟩ => rfl)
    rw [val_main_v23_apply, el, er, hidden_apply]
  have eb : idx_main_v25 (idx_main_v26 (ix2 r a)) = ix1 a :=
    funext fun b => Fin.ext (by match b with | ⟨0, _⟩ => rfl)
  rw [val_main_v28_apply, val_main_v27_apply, val_main_v24_apply, val_main_v26_apply, val_main_v25_apply,
    val_main_call2_v0_apply, val_main_call2_cst_apply, Finset.sum_congr rfl (fun k _ => es k), eb]
  rfl

/-- The penalties of row `r`, as the specification computes them. -/
abbrev penaltyOf (r : Fin 32768) : Fin 2 → EReal :=
  Cert.Controller.penalty (hiddenOf x0 x4 x5 r) (fun a k => x10 (ix2 a k)) (fun a => x11 (ix1 a))
    (fun a k => x12 (ix2 a k)) (fun a => x13 (ix1 a))

/-- The penalties: four times the logistic of the linear read-out of their head's hidden layer. -/
theorem penalty_apply (r : Fin 32768) (a : Fin 2) :
    val_main_v41 (F := Ideal) x0 x4 x5 x10 x11 x12 x13 (ix2 r a) = penaltyOf x0 x4 x5 x10 x11 x12 x13 r a := by
  have es : ∀ k : Fin 512, val_main_v28 (F := Ideal) x0 x4 x5 x10 x11 (lidx_main_v30 (ix2 r a) k)
        * val_main_v29 (F := Ideal) x12 (ridx_main_v30 (ix2 r a) k)
      = Cert.Controller.branch (hiddenOf x0 x4 x5 r) (fun a k => x10 (ix2 a k)) (fun a => x11 (ix1 a)) k
        * x12 (ix2 a k) := fun k => by
    have el : lidx_main_v30 (ix2 r a) k = ix2 r k :=
      funext fun b => Fin.ext (by match b with | ⟨0, _⟩ => rfl | ⟨1, _⟩ => rfl)
    have er : idx_main_v29 (ridx_main_v30 (ix2 r a) k) = ix2 a k :=
      funext fun b => Fin.ext (by match b with | ⟨0, _⟩ => rfl | ⟨1, _⟩ => rfl)
    rw [val_main_v29_apply, el, er, branch_penalty_apply]
  have eb : idx_main_v31 (idx_main_v32 (ix2 r a)) = ix1 a :=
    funext fun b => Fin.ext (by match b with | ⟨0, _⟩ => rfl)
  rw [val_main_v41_apply, val_main_v40_apply, val_main_cst_1_apply, val_main_v39_apply, val_main_v38_apply,
    val_main_cst_0_apply, val_main_v37_apply, val_main_v36_apply, val_main_cst_apply, val_main_v35_apply,
    val_main_v34_apply, val_main_v33_apply, val_main_v30_apply, val_main_v32_apply, val_main_v31_apply,
    Finset.sum_congr rfl (fun k _ => es k), eb]
  simp only [Ideal.ofBits_def, Ideal.ofBits_one_f32]
  rfl

end Cert.ReferenceIdeal.RefValue

end
-- ==== Proof.ReferenceBarrier.lean ====
/-
  The reference's barrier stages read at one row. From the de-normalised state of the row come the heading and the
  speed, the moving obstacle's position, heading and speed, and the three fixed obstacles' positions; from these and
  the two penalties the reference forms, obstacle by obstacle, the gap, the barrier's rate, the drift term, the two
  steering coefficients and the margin. Each is the specification's function of the same name at the row's state.

  The moving obstacle's terms are arrays over the rows. The three fixed obstacles are computed at once as arrays over
  (row, obstacle): the state's last twelve columns are regrouped as three groups of four, so obstacle `i` reads
  columns `8 + 4 i` and `9 + 4 i`, and the row's heading, speed and penalties are repeated along the obstacle axis.
  Those stages are read once for an arbitrary obstacle `i`.
-/
import proofs.«137691_j87677462381133_2_alg».proof.Proof.ReferenceNetwork

noncomputable section

open scoped BigOperators

namespace Cert.ReferenceIdeal.RefValue

open Cert.ReferenceIdeal Cert.ReferenceIdeal.Read Idealize.ShloMosaic Idealize.ShloMosaic.ValueIdx

variable (x0 : (⟨S32768x20, .f32⟩ : BufTy).Contents (Elt Ideal)) (x2 x3 : (⟨S20, .f32⟩ : BufTy).Contents (Elt Ideal))
  (x4 : (⟨S1024x20, .f32⟩ : BufTy).Contents (Elt Ideal)) (x5 : (⟨S1024, .f32⟩ : BufTy).Contents (Elt Ideal))
  (x10 : (⟨S512x1024, .f32⟩ : BufTy).Contents (Elt Ideal)) (x11 : (⟨S512, .f32⟩ : BufTy).Contents (Elt Ideal))
  (x12 : (⟨S2x512, .f32⟩ : BufTy).Contents (Elt Ideal)) (x13 : (⟨S2, .f32⟩ : BufTy).Contents (Elt Ideal))

/-- A one-coordinate index is determined by its coordinate. -/
local macro "by_coord1" : term => `(funext fun a => Fin.ext (by match a with | ⟨0, _⟩ => rfl))

/-! ## Columns of the state, and the penalties, as arrays over the rows -/

/-! Each of the next six stages cuts one column out of the state as a one-column array and flattens it back to an
    array over the rows; the two after them do the same with the two columns of the penalties. -/

/-- The heading: column 2 of the state. -/
theorem heading_apply (r : Fin 32768) : val_main_v47 (F := Ideal) x0 x2 x3 (ix1 r) = stateOf x0 x2 x3 r 2 := by
  have e : idx_main_v46 (idx_main_v47 (ix1 r)) = ix2 r (2 : Fin 20) :=
    funext fun a => Fin.ext (by match a with | ⟨0, _⟩ => exact Nat.div_one _ | ⟨1, _⟩ => rfl)
  rw [val_main_v47_apply, val_main_v46_apply, e, state_apply]

theorem speed_apply (r : Fin 32768) : val_main_v49 (F := Ideal) x0 x2 x3 (ix1 r) = stateOf x0 x2 x3 r 3 := by
  have e : idx_main_v48 (idx_main_v49 (ix1 r)) = ix2 r (3 : Fin 20) :=
    funext fun a => Fin.ext (by match a with | ⟨0, _⟩ => exact Nat.div_one _ | ⟨1, _⟩ => rfl)
  rw [val_main_v49_apply, val_main_v48_apply, e, state_apply]

theorem movX_apply (r : Fin 32768) : val_main_v53 (F := Ideal) x0 x2 x3 (ix1 r) = stateOf x0 x2 x3 r 4 := by
  have e : idx_main_v52 (idx_main_v53 (ix1 r)) = ix2 r (4 : Fin 20) :=
    funext fun a => Fin.ext (by match a with | ⟨0, _⟩ => exact Nat.div_one _ | ⟨1, _⟩ => rfl)
  rw [val_main_v53_apply, val_main_v52_apply, e, state_apply]

theorem movY_apply (r : Fin 32768) : val_main_v55 (F := Ideal) x0 x2 x3 (ix1 r) = stateOf x0 x2 x3 r 5 := by
  have e : idx_main_v54 (idx_main_v55 (ix1 r)) = ix2 r (5 : Fin 20) :=
    funext fun a => Fin.ext (by match a with | ⟨0, _⟩ => exact Nat.div_one _ | ⟨1, _⟩ => rfl)
  rw [val_main_v55_apply, val_main_v54_apply, e, state_apply]

theorem movHeading_apply (r : Fin 32768) : val_main_v57 (F := Ideal) x0 x2 x3 (ix1 r) = stateOf x0 x2 x3 r 6 := by
  have e : idx_main_v56 (idx_main_v57 (ix1 r)) = ix2 r (6 : Fin 20) :=
    funext fun a => Fin.ext (by match a with | ⟨0, _⟩ => exact Nat.div_one _ | ⟨1, _⟩ => rfl)
  rw [val_main_v57_apply, val_main_v56_apply, e, state_apply]

theorem movSpeed_apply (r : Fin 32768) : val_main_v59 (F := Ideal) x0 x2 x3 (ix1 r) = stateOf x0 x2 x3 r 7 := by
  have e : idx_main_v58 (idx_main_v59 (ix1 r)) = ix2 r (7 : Fin 20) :=
    funext fun a => Fin.ext (by match a with | ⟨0, _⟩ => exact Nat.div_one _ | ⟨1, _⟩ => rfl)
  rw [val_main_v59_apply, val_main_v58_apply, e, state_apply]

theorem pen0_apply (r : Fin 32768) :
    val_main_v43 (F := Ideal) x0 x4 x5 x10 x11 x12 x13 (ix1 r) = penaltyOf x0 x4 x5 x10 x11 x12 x13 r 0 := by
  have e : idx_main_v42 (idx_main_v43 (ix1 r)) = ix2 r (0 : Fin 2) :=
    funext fun a => Fin.ext (by match a with | ⟨0, _⟩ => exact Nat.div_one _ | ⟨1, _⟩ => rfl)
  rw [val_main_v43_apply, val_main_v42_apply, e, penalty_apply]

theorem pen1_apply (r : Fin 32768) :
    val_main_v45 (F := Ideal) x0 x4 x5 x10 x11 x12 x13 (ix1 r) = penaltyOf x0 x4 x5 x10 x11 x12 x13 r 1 := by
  have e : idx_main_v44 (idx_main_v45 (ix1 r)) = ix2 r (1 : Fin 2) :=
    funext fun a => Fin.ext (by match a with | ⟨0, _⟩ => exact Nat.div_one _ | ⟨1, _⟩ => rfl)
  rw [val_main_v45_apply, val_main_v44_apply, e, penalty_apply]

theorem sinHeading_apply (r : Fin 32768) :
    val_main_v50 (F := Ideal) x0 x2 x3 (ix1 r) = Ideal.sin (stateOf x0 x2 x3 r 2) := by
  rw [val_main_v50_apply, heading_apply]; rfl

theorem cosHeading_apply (r : Fin 32768) :
    val_main_v51 (F := Ideal) x0 x2 x3 (ix1 r) = Ideal.cos (stateOf x0 x2 x3 r 2) := by
  rw [val_main_v51_apply, heading_apply]; rfl

/-! ## The moving obstacle -/

theorem gap_moving (r : Fin 32768) :
    val_main_v68 (F := Ideal) x0 x2 x3 (ix1 r)
      = Cert.Controller.gap (-(stateOf x0 x2 x3 r 4)) (-(stateOf x0 x2 x3 r 5)) := by
  rw [val_main_v68_apply, val_main_v66_apply, val_main_v64_apply, val_main_v65_apply, val_main_v67_apply,
    val_main_cst_2_apply, val_main_v60_apply, val_main_v61_apply, movX_apply, movY_apply]
  rfl

theorem rate_moving (r : Fin 32768) :
    val_main_v81 (F := Ideal) x0 x2 x3 (ix1 r)
      = Cert.Controller.movingRate (-(stateOf x0 x2 x3 r 4)) (-(stateOf x0 x2 x3 r 5)) (stateOf x0 x2 x3 r 3)
          (Ideal.cos (stateOf x0 x2 x3 r 2)) (Ideal.sin (stateOf x0 x2 x3 r 2)) (stateOf x0 x2 x3 r 7)
          (Ideal.cos (stateOf x0 x2 x3 r 6)) (Ideal.sin (stateOf x0 x2 x3 r 6)) := by
  rw [val_main_v81_apply, val_main_v74_apply, val_main_v70_apply, val_main_v69_apply, val_main_cst_3_apply,
    val_main_v73_apply, val_main_v71_apply, val_main_v72_apply, val_main_v80_apply, val_main_v76_apply,
    val_main_v75_apply, val_main_cst_4_apply, val_main_v79_apply, val_main_v77_apply, val_main_v78_apply,
    val_main_v60_apply, val_main_v61_apply, val_main_v62_apply, val_main_v63_apply, sinHeading_apply,
    cosHeading_apply, movX_apply, movY_apply, speed_apply, movSpeed_apply, movHeading_apply]
  rfl

theorem accel_moving (r : Fin 32768) :
    val_main_v93 (F := Ideal) x0 x2 x3 (ix1 r)
      = Cert.Controller.movingAccel (stateOf x0 x2 x3 r 3) (stateOf x0 x2 x3 r 7) (stateOf x0 x2 x3 r 2)
          (stateOf x0 x2 x3 r 6) := by
  rw [val_main_v93_apply, val_main_v92_apply, val_main_cst_6_apply, val_main_v91_apply, val_main_v84_apply,
    val_main_v82_apply, val_main_v83_apply, val_main_v90_apply, val_main_v87_apply, val_main_v86_apply,
    val_main_v85_apply, val_main_cst_5_apply, val_main_v89_apply, val_main_v88_apply, speed_apply,
    movSpeed_apply, heading_apply, movHeading_apply]
  rfl

theorem steer1_moving (r : Fin 32768) :
    val_main_v110 (F := Ideal) x0 x2 x3 (ix1 r)
      = -(Cert.Controller.steer1 (-(stateOf x0 x2 x3 r 4)) (-(stateOf x0 x2 x3 r 5)) (stateOf x0 x2 x3 r 3)
          (Ideal.sin (stateOf x0 x2 x3 r 2)) (Ideal.cos (stateOf x0 x2 x3 r 2))) := by
  rw [val_main_v110_apply, val_main_v102_apply, val_main_v97_apply, val_main_v96_apply, val_main_v95_apply,
    val_main_v94_apply, val_main_cst_7_apply, val_main_v101_apply, val_main_v100_apply, val_main_v99_apply,
    val_main_v98_apply, val_main_cst_8_apply, val_main_v60_apply, val_main_v61_apply, sinHeading_apply,
    cosHeading_apply, movX_apply, movY_apply, speed_apply]
  rfl

theorem steer2_moving (r : Fin 32768) :
    val_main_v111 (F := Ideal) x0 x2 x3 (ix1 r)
      = -(Cert.Controller.steer2 (-(stateOf x0 x2 x3 r 4)) (-(stateOf x0 x2 x3 r 5))
          (Ideal.sin (stateOf x0 x2 x3 r 2)) (Ideal.cos (stateOf x0 x2 x3 r 2))) := by
  rw [val_main_v111_apply, val_main_v109_apply, val_main_v105_apply, val_main_v104_apply, val_main_v103_apply,
    val_main_cst_9_apply, val_main_v108_apply, val_main_v107_apply, val_main_v106_apply, val_main_cst_10_apply,
    val_main_v60_apply, val_main_v61_apply, sinHeading_apply, cosHeading_apply, movX_apply, movY_apply]
  rfl

theorem margin_moving (r : Fin 32768) :
    val_main_v120 (F := Ideal) x0 x2 x3 x4 x5 x10 x11 x12 x13 (ix1 r)
      = Cert.Controller.margin
          (Cert.Controller.movingAccel (stateOf x0 x2 x3 r 3) (stateOf x0 x2 x3 r 7) (stateOf x0 x2 x3 r 2)
            (stateOf x0 x2 x3 r 6))
          (penaltyOf x0 x4 x5 x10 x11 x12 x13 r 0) (penaltyOf x0 x4 x5 x10 x11 x12 x13 r 1)
          (Cert.Controller.movingRate (-(stateOf x0 x2 x3 r 4)) (-(stateOf x0 x2 x3 r 5)) (stateOf x0 x2 x3 r 3)
            (Ideal.cos (stateOf x0 x2 x3 r 2)) (Ideal.sin (stateOf x0 x2 x3 r 2)) (stateOf x0 x2 x3 r 7)
            (Ideal.cos (stateOf x0 x2 x3 r 6)) (Ideal.sin (stateOf x0 x2 x3 r 6)))
          (Cert.Controller.gap (-(stateOf x0 x2 x3 r 4)) (-(stateOf x0 x2 x3 r 5))) := by
  rw [val_main_v120_apply, val_main_v117_apply, val_main_v116_apply, val_main_v115_apply, val_main_v119_apply,
    val_main_v118_apply, accel_moving, rate_moving, gap_moving, pen0_apply, pen1_apply]
  rfl

/-! ## The three fixed obstacles, for an arbitrary one -/

/-- The state column that holds coordinate `c` of fixed obstacle `i`. -/
def obsCol (i : Fin 3) (c : Fin 4) : Fin 20 := ⟨8 + (4 * i.val + c.val), by have := i.isLt; have := c.isLt; omega⟩

/-- The state's last twelve columns regrouped as three groups of four. -/
theorem obstacle_apply (r : Fin 32768) (i : Fin 3) (c : Fin 4) :
    val_main_v122 (F := Ideal) x0 x2 x3 (ix3 r i c) = stateOf x0 x2 x3 r (obsCol i c) := by
  have e : idx_main_v121 (idx_main_v122 (ix3 r i c)) = ix2 r (obsCol i c) :=
    funext fun a => Fin.ext (by
      have hr := r.isLt; have hi := i.isLt; have hc := c.isLt
      match a with
      | ⟨0, _⟩ => show ((r.val * 3 + i.val) * 4 + c.val) / 12 = r.val; omega
      | ⟨1, _⟩ => show 8 + ((r.val * 3 + i.val) * 4 + c.val) % 12 = 8 + (4 * i.val + c.val); omega)
  rw [val_main_v122_apply, val_main_v121_apply, e, state_apply]

theorem obsX_apply (r : Fin 32768) (i : Fin 3) :
    val_main_v124 (F := Ideal) x0 x2 x3 (ix2 r i) = stateOf x0 x2 x3 r (obsCol i 0) := by
  have e : idx_main_v123 (idx_main_v124 (ix2 r i)) = ix3 r i (0 : Fin 4) :=
    funext fun a => Fin.ext (by
      have hr := r.isLt; have hi := i.isLt
      match a with
      | ⟨0, _⟩ => show (r.val * 3 + i.val) / 3 = r.val; omega
      | ⟨1, _⟩ => show (r.val * 3 + i.val) / 1 % 3 = i.val; omega
      | ⟨2, _⟩ => rfl)
  rw [val_main_v124_apply, val_main_v123_apply, e, obstacle_apply]

theorem obsY_apply (r : Fin 32768) (i : Fin 3) :
    val_main_v127 (F := Ideal) x0 x2 x3 (ix2 r i) = stateOf x0 x2 x3 r (obsCol i 1) := by
  have e : idx_main_v126 (idx_main_v127 (ix2 r i)) = ix3 r i (1 : Fin 4) :=
    funext fun a => Fin.ext (by
      have hr := r.isLt; have hi := i.isLt
      match a with
      | ⟨0, _⟩ => show (r.val * 3 + i.val) / 3 = r.val; omega
      | ⟨1, _⟩ => show (r.val * 3 + i.val) / 1 % 3 = i.val; omega
      | ⟨2, _⟩ => rfl)
  rw [val_main_v127_apply, val_main_v126_apply, e, obstacle_apply]

/-! The row's speed, and the sine and cosine of its heading, repeated along the obstacle axis (each use is a stage
    of its own in the reference). -/

theorem speed139 (r : Fin 32768) (i : Fin 3) :
    val_main_v139 (F := Ideal) x0 x2 x3 (ix2 r i) = stateOf x0 x2 x3 r 3 := by
  rw [val_main_v139_apply, val_main_v129_apply,
    show idx_main_v129 (idx_main_v139 (ix2 r i)) = ix1 r from by_coord1, speed_apply]

theorem speed145 (r : Fin 32768) (i : Fin 3) :
    val_main_v145 (F := Ideal) x0 x2 x3 (ix2 r i) = stateOf x0 x2 x3 r 3 := by
  rw [val_main_v145_apply, val_main_v129_apply,
    show idx_main_v129 (idx_main_v145 (ix2 r i)) = ix1 r from by_coord1, speed_apply]

theorem speed155 (r : Fin 32768) (i : Fin 3) :
    val_main_v155 (F := Ideal) x0 x2 x3 (ix2 r i) = stateOf x0 x2 x3 r 3 := by
  rw [val_main_v155_apply, val_main_v129_apply,
    show idx_main_v129 (idx_main_v155 (ix2 r i)) = ix1 r from by_coord1, speed_apply]

theorem speed161 (r : Fin 32768) (i : Fin 3) :
    val_main_v161 (F := Ideal) x0 x2 x3 (ix2 r i) = stateOf x0 x2 x3 r 3 := by
  rw [val_main_v161_apply, val_main_v129_apply,
    show idx_main_v129 (idx_main_v161 (ix2 r i)) = ix1 r from by_coord1, speed_apply]

theorem cos141 (r : Fin 32768) (i : Fin 3) :
    val_main_v141 (F := Ideal) x0 x2 x3 (ix2 r i) = Ideal.cos (stateOf x0 x2 x3 r 2) := by
  rw [val_main_v141_apply, val_main_v131_apply,
    show idx_main_v131 (idx_main_v141 (ix2 r i)) = ix1 r from by_coord1, cosHeading_apply]

theorem cos163 (r : Fin 32768) (i : Fin 3) :
    val_main_v163 (F := Ideal) x0 x2 x3 (ix2 r i) = Ideal.cos (stateOf x0 x2 x3 r 2) := by
  rw [val_main_v163_apply, val_main_v131_apply,
    show idx_main_v131 (idx_main_v163 (ix2 r i)) = ix1 r from by_coord1, cosHeading_apply]

theorem cos168 (r : Fin 32768) (i : Fin 3) :
    val_main_v168 (F := Ideal) x0 x2 x3 (ix2 r i) = Ideal.cos (stateOf x0 x2 x3 r 2) := by
  rw [val_main_v168_apply, val_main_v131_apply,
    show idx_main_v131 (idx_main_v168 (ix2 r i)) = ix1 r from by_coord1, cosHeading_apply]

theorem sin147 (r : Fin 32768) (i : Fin 3) :
    val_main_v147 (F := Ideal) x0 x2 x3 (ix2 r i) = Ideal.sin (stateOf x0 x2 x3 r 2) := by
  rw [val_main_v147_apply, val_main_v130_apply,
    show idx_main_v130 (idx_main_v147 (ix2 r i)) = ix1 r from by_coord1, sinHeading_apply]

theorem sin157 (r : Fin 32768) (i : Fin 3) :
    val_main_v157 (F := Ideal) x0 x2 x3 (ix2 r i) = Ideal.sin (stateOf x0 x2 x3 r 2) := by
  rw [val_main_v157_apply, val_main_v130_apply,
    show idx_main_v130 (idx_main_v157 (ix2 r i)) = ix1 r from by_coord1, sinHeading_apply]

theorem sin172 (r : Fin 32768) (i : Fin 3) :
    val_main_v172 (F := Ideal) x0 x2 x3 (ix2 r i) = Ideal.sin (stateOf x0 x2 x3 r 2) := by
  rw [val_main_v172_apply, val_main_v130_apply,
    show idx_main_v130 (idx_main_v172 (ix2 r i)) = ix1 r from by_coord1, sinHeading_apply]

/-- The drift term against a fixed obstacle, a one-column array repeated along the obstacle axis. -/
theorem accel_fixed (r : Fin 32768) (i : Fin 3) :
    val_main_v184 (F := Ideal) x0 x2 x3 (ix2 r i) = Cert.Controller.fixedAccel (stateOf x0 x2 x3 r 3) := by
  rw [val_main_v184_apply, val_main_v152_apply, val_main_v151_apply, val_main_v150_apply, val_main_cst_14_apply,
    val_main_v129_apply, show idx_main_v129 (idx_main_v184 (ix2 r i)) = ix1 r from by_coord1, speed_apply]
  rfl

/-- The sum of the two penalties repeated along the obstacle axis. -/
theorem penSum_fixed (r : Fin 32768) (i : Fin 3) :
    val_main_v182 (F := Ideal) x0 x4 x5 x10 x11 x12 x13 (ix2 r i)
      = penaltyOf x0 x4 x5 x10 x11 x12 x13 r 0 + penaltyOf x0 x4 x5 x10 x11 x12 x13 r 1 := by
  rw [val_main_v182_apply, val_main_v181_apply,
    show idx_main_v181 (idx_main_v182 (ix2 r i)) = ix1 r from by_coord1, val_main_v180_apply, pen0_apply,
    pen1_apply]
  rfl

/-- The product of the two penalties repeated along the obstacle axis. -/
theorem penProd_fixed (r : Fin 32768) (i : Fin 3) :
    val_main_v188 (F := Ideal) x0 x4 x5 x10 x11 x12 x13 (ix2 r i)
      = penaltyOf x0 x4 x5 x10 x11 x12 x13 r 0 * penaltyOf x0 x4 x5 x10 x11 x12 x13 r 1 := by
  rw [val_main_v188_apply, val_main_v187_apply,
    show idx_main_v187 (idx_main_v188 (ix2 r i)) = ix1 r from by_coord1, val_main_v186_apply, pen0_apply,
    pen1_apply]
  rfl

theorem gap_fixed (r : Fin 32768) (i : Fin 3) :
    val_main_v136 (F := Ideal) x0 x2 x3 (ix2 r i)
      = Cert.Controller.gap (-(stateOf x0 x2 x3 r (obsCol i 0))) (-(stateOf x0 x2 x3 r (obsCol i 1))) := by
  rw [val_main_v136_apply, val_main_v134_apply, val_main_v132_apply, val_main_v133_apply, val_main_v135_apply,
    val_main_cst_11_apply, val_main_v125_apply, val_main_v128_apply, obsX_apply, obsY_apply]
  rfl

theorem rate_fixed (r : Fin 32768) (i : Fin 3) :
    val_main_v149 (F := Ideal) x0 x2 x3 (ix2 r i)
      = Cert.Controller.fixedRate (-(stateOf x0 x2 x3 r (obsCol i 0))) (-(stateOf x0 x2 x3 r (obsCol i 1)))
          (stateOf x0 x2 x3 r 3) (Ideal.cos (stateOf x0 x2 x3 r 2)) (Ideal.sin (stateOf x0 x2 x3 r 2)) := by
  rw [val_main_v149_apply, val_main_v142_apply, val_main_v140_apply, val_main_v138_apply, val_main_v137_apply,
    val_main_cst_12_apply, val_main_v148_apply, val_main_v146_apply, val_main_v144_apply, val_main_v143_apply,
    val_main_cst_13_apply, val_main_v125_apply, val_main_v128_apply, obsX_apply, obsY_apply, speed139, cos141,
    speed145, sin147]
  rfl

theorem steer1_fixed (r : Fin 32768) (i : Fin 3) :
    val_main_v175 (F := Ideal) x0 x2 x3 (ix2 r i)
      = -(Cert.Controller.steer1 (-(stateOf x0 x2 x3 r (obsCol i 0))) (-(stateOf x0 x2 x3 r (obsCol i 1)))
          (stateOf x0 x2 x3 r 3) (Ideal.sin (stateOf x0 x2 x3 r 2)) (Ideal.cos (stateOf x0 x2 x3 r 2))) := by
  rw [val_main_v175_apply, val_main_v165_apply, val_main_v158_apply, val_main_v156_apply, val_main_v154_apply,
    val_main_v153_apply, val_main_cst_15_apply, val_main_v164_apply, val_main_v162_apply, val_main_v160_apply,
    val_main_v159_apply, val_main_cst_16_apply, val_main_v125_apply, val_main_v128_apply, obsX_apply,
    obsY_apply, speed155, sin157, speed161, cos163]
  rfl

theorem steer2_fixed (r : Fin 32768) (i : Fin 3) :
    val_main_v176 (F := Ideal) x0 x2 x3 (ix2 r i)
      = -(Cert.Controller.steer2 (-(stateOf x0 x2 x3 r (obsCol i 0))) (-(stateOf x0 x2 x3 r (obsCol i 1)))
          (Ideal.sin (stateOf x0 x2 x3 r 2)) (Ideal.cos (stateOf x0 x2 x3 r 2))) := by
  rw [val_main_v176_apply, val_main_v174_apply, val_main_v169_apply, val_main_v167_apply, val_main_v166_apply,
    val_main_cst_17_apply, val_main_v173_apply, val_main_v171_apply, val_main_v170_apply, val_main_cst_18_apply,
    val_main_v125_apply, val_main_v128_apply, obsX_apply, obsY_apply, cos168, sin172]
  rfl

theorem margin_fixed (r : Fin 32768) (i : Fin 3) :
    val_main_v190 (F := Ideal) x0 x2 x3 x4 x5 x10 x11 x12 x13 (ix2 r i)
      = Cert.Controller.margin (Cert.Controller.fixedAccel (stateOf x0 x2 x3 r 3))
          (penaltyOf x0 x4 x5 x10 x11 x12 x13 r 0) (penaltyOf x0 x4 x5 x10 x11 x12 x13 r 1)
          (Cert.Controller.fixedRate (-(stateOf x0 x2 x3 r (obsCol i 0))) (-(stateOf x0 x2 x3 r (obsCol i 1)))
            (stateOf x0 x2 x3 r 3) (Ideal.cos (stateOf x0 x2 x3 r 2)) (Ideal.sin (stateOf x0 x2 x3 r 2)))
          (Cert.Controller.gap (-(stateOf x0 x2 x3 r (obsCol i 0))) (-(stateOf x0 x2 x3 r (obsCol i 1)))) := by
  rw [val_main_v190_apply, val_main_v185_apply, val_main_v183_apply, val_main_v189_apply, accel_fixed,
    penSum_fixed, rate_fixed, penProd_fixed, gap_fixed]
  rfl

end Cert.ReferenceIdeal.RefValue

end
-- ==== Proof.ReferenceResult.lean ====
/-
  The reference's result array, column by column. The result joins three arrays along the column axis: the control
  (two columns), the steering coefficients (eight columns: for each of the four obstacles its negated pair, the moving
  obstacle first), and the margins (four columns, the moving obstacle first). The coefficients are themselves joined:
  each obstacle's pair along a last axis of extent two, the moving obstacle's pair before the three fixed obstacles'
  along the obstacle axis, and the obstacle and pair axes then flattened to eight columns, so column `c` of the eight
  is entry `c % 2` of the pair of obstacle `c / 2`. An entry of a joined array is read from the piece whose span
  holds its coordinate on the joined axis. With every column read back to the stages of the network and of the
  barrier terms, the result is the specification's, row by row and column by column.
-/
import proofs.«137691_j87677462381133_2_alg».proof.Proof.ReferenceBarrier

noncomputable section

open scoped BigOperators

namespace Cert.ReferenceIdeal.RefValue

open Cert.ReferenceIdeal Cert.ReferenceIdeal.Read Idealize.ShloMosaic Idealize.ShloMosaic.ValueIdx

variable (x0 : (⟨S32768x20, .f32⟩ : BufTy).Contents (Elt Ideal)) (x2 x3 : (⟨S20, .f32⟩ : BufTy).Contents (Elt Ideal))
  (x4 : (⟨S1024x20, .f32⟩ : BufTy).Contents (Elt Ideal)) (x5 : (⟨S1024, .f32⟩ : BufTy).Contents (Elt Ideal))
  (x6 : (⟨S512x1024, .f32⟩ : BufTy).Contents (Elt Ideal)) (x7 : (⟨S512, .f32⟩ : BufTy).Contents (Elt Ideal))
  (x8 : (⟨S2x512, .f32⟩ : BufTy).Contents (Elt Ideal)) (x9 : (⟨S2, .f32⟩ : BufTy).Contents (Elt Ideal))
  (x10 : (⟨S512x1024, .f32⟩ : BufTy).Contents (Elt Ideal)) (x11 : (⟨S512, .f32⟩ : BufTy).Contents (Elt Ideal))
  (x12 : (⟨S2x512, .f32⟩ : BufTy).Contents (Elt Ideal)) (x13 : (⟨S2, .f32⟩ : BufTy).Contents (Elt Ideal))

/-! ## The moving obstacle's pair of coefficients -/

theorem pair_moving_fst (r : Fin 32768) :
    val_main_v114 (F := Ideal) x0 x2 x3 (ix2 r (0 : Fin 2)) = val_main_v110 (F := Ideal) x0 x2 x3 (ix1 r) := by
  have h : val_main_v114 (F := Ideal) x0 x2 x3 (ix2 r (0 : Fin 2))
      = val_main_v112 (F := Ideal) x0 x2 x3 (ix2 r (0 : Fin 1)) := by
    unfold val_main_v114
    generalize val_main_v112 (F := Ideal) x0 x2 x3 = y₁
    generalize val_main_v113 (F := Ideal) x0 x2 x3 = y₂
    exact concatenate_pair_apply_left _ y₁ y₂ _ (ix2 r (0 : Fin 2)) rfl (ix2 r (0 : Fin 1))
      (fun b => match b with | ⟨0, _⟩ => rfl | ⟨1, _⟩ => rfl)
  rw [h, val_main_v112_apply]
  exact congrArg _ (funext fun a => Fin.ext (by match a with | ⟨0, _⟩ => rfl))

theorem pair_moving_snd (r : Fin 32768) :
    val_main_v114 (F := Ideal) x0 x2 x3 (ix2 r (1 : Fin 2)) = val_main_v111 (F := Ideal) x0 x2 x3 (ix1 r) := by
  have h : val_main_v114 (F := Ideal) x0 x2 x3 (ix2 r (1 : Fin 2))
      = val_main_v113 (F := Ideal) x0 x2 x3 (ix2 r (0 : Fin 1)) := by
    unfold val_main_v114
    generalize val_main_v112 (F := Ideal) x0 x2 x3 = y₁
    generalize val_main_v113 (F := Ideal) x0 x2 x3 = y₂
    exact concatenate_pair_apply_right _ y₁ y₂ _ (ix2 r (1 : Fin 2)) rfl rfl (ix2 r (0 : Fin 1))
      (fun b => match b with | ⟨0, _⟩ => fun _ => rfl | ⟨1, _⟩ => fun hb => absurd rfl hb) rfl
  rw [h, val_main_v113_apply]
  exact congrArg _ (funext fun a => Fin.ext (by match a with | ⟨0, _⟩ => rfl))

/-! ## A fixed obstacle's pair of coefficients -/

theorem pair_fixed_fst (r : Fin 32768) (i : Fin 3) :
    val_main_v179 (F := Ideal) x0 x2 x3 (ix3 r i (0 : Fin 2)) = val_main_v175 (F := Ideal) x0 x2 x3 (ix2 r i) := by
  have h : val_main_v179 (F := Ideal) x0 x2 x3 (ix3 r i (0 : Fin 2))
      = val_main_v177 (F := Ideal) x0 x2 x3 (ix3 r i (0 : Fin 1)) := by
    unfold val_main_v179
    generalize val_main_v177 (F := Ideal) x0 x2 x3 = y₁
    generalize val_main_v178 (F := Ideal) x0 x2 x3 = y₂
    exact concatenate_pair_apply_left _ y₁ y₂ _ (ix3 r i (0 : Fin 2)) rfl (ix3 r i (0 : Fin 1))
      (fun b => match b with | ⟨0, _⟩ => rfl | ⟨1, _⟩ => rfl | ⟨2, _⟩ => rfl)
  rw [h, val_main_v177_apply]
  exact congrArg _ (funext fun a => Fin.ext (by match a with | ⟨0, _⟩ => rfl | ⟨1, _⟩ => rfl))

theorem pair_fixed_snd (r : Fin 32768) (i : Fin 3) :
    val_main_v179 (F := Ideal) x0 x2 x3 (ix3 r i (1 : Fin 2)) = val_main_v176 (F := Ideal) x0 x2 x3 (ix2 r i) := by
  have h : val_main_v179 (F := Ideal) x0 x2 x3 (ix3 r i (1 : Fin 2))
      = val_main_v178 (F := Ideal) x0 x2 x3 (ix3 r i (0 : Fin 1)) := by
    unfold val_main_v179
    generalize val_main_v177 (F := Ideal) x0 x2 x3 = y₁
    generalize val_main_v178 (F := Ideal) x0 x2 x3 = y₂
    exact concatenate_pair_apply_right _ y₁ y₂ _ (ix3 r i (1 : Fin 2)) rfl rfl (ix3 r i (0 : Fin 1))
      (fun b => match b with
        | ⟨0, _⟩ => fun _ => rfl | ⟨1, _⟩ => fun _ => rfl | ⟨2, _⟩ => fun hb => absurd rfl hb) rfl
  rw [h, val_main_v178_apply]
  exact congrArg _ (funext fun a => Fin.ext (by match a with | ⟨0, _⟩ => rfl | ⟨1, _⟩ => rfl))

/-! ## The four obstacles' pairs, the moving obstacle first -/

theorem coeff_moving (r : Fin 32768) (k : Fin 2) :
    val_main_v192 (F := Ideal) x0 x2 x3 (ix3 r (0 : Fin 4) k) = val_main_v114 (F := Ideal) x0 x2 x3 (ix2 r k) := by
  have h : val_main_v192 (F := Ideal) x0 x2 x3 (ix3 r (0 : Fin 4) k)
      = val_main_v191 (F := Ideal) x0 x2 x3 (ix3 r (0 : Fin 1) k) := by
    unfold val_main_v192
    generalize val_main_v191 (F := Ideal) x0 x2 x3 = y₁
    generalize val_main_v179 (F := Ideal) x0 x2 x3 = y₂
    exact concatenate_pair_apply_left _ y₁ y₂ _ (ix3 r (0 : Fin 4) k) rfl (ix3 r (0 : Fin 1) k)
      (fun b => match b with | ⟨0, _⟩ => rfl | ⟨1, _⟩ => rfl | ⟨2, _⟩ => rfl)
  rw [h, val_main_v191_apply]
  exact congrArg _ (funext fun a => Fin.ext (by match a with | ⟨0, _⟩ => rfl | ⟨1, _⟩ => rfl))

theorem coeff_fixed (r : Fin 32768) (i : Fin 3) (k : Fin 2) (o : Fin 4) (ho : o.val = 1 + i.val) :
    val_main_v192 (F := Ideal) x0 x2 x3 (ix3 r o k) = val_main_v179 (F := Ideal) x0 x2 x3 (ix3 r i k) := by
  unfold val_main_v192
  generalize val_main_v191 (F := Ideal) x0 x2 x3 = y₁
  generalize val_main_v179 (F := Ideal) x0 x2 x3 = y₂
  exact concatenate_pair_apply_right _ y₁ y₂ _ (ix3 r o k) rfl rfl (ix3 r i k)
    (fun b => match b with
      | ⟨0, _⟩ => fun _ => rfl | ⟨1, _⟩ => fun hb => absurd rfl hb | ⟨2, _⟩ => fun _ => rfl)
    (by show i.val + 1 = o.val; omega)

/-- The obstacle and pair axes flattened to eight columns. -/
theorem coeff_apply (r : Fin 32768) (c : Fin 8) (o : Fin 4) (k : Fin 2) (h : c.val = 2 * o.val + k.val) :
    val_main_v195 (F := Ideal) x0 x2 x3 (ix2 r c) = val_main_v192 (F := Ideal) x0 x2 x3 (ix3 r o k) := by
  have e : idx_main_v195 (ix2 r c) = ix3 r o k :=
    funext fun a => Fin.ext (by
      have hr := r.isLt; have hc := c.isLt; have ho := o.isLt; have hk := k.isLt
      match a with
      | ⟨0, _⟩ => show (r.val * 8 + c.val) / 8 = r.val; omega
      | ⟨1, _⟩ => show (r.val * 8 + c.val) / 2 % 4 = o.val; omega
      | ⟨2, _⟩ => show (r.val * 8 + c.val) % 2 = k.val; omega)
  rw [val_main_v195_apply, e]

/-! ## The four margins, the moving obstacle first -/

theorem margins_moving (r : Fin 32768) :
    val_main_v194 (F := Ideal) x0 x2 x3 x4 x5 x10 x11 x12 x13 (ix2 r (0 : Fin 4))
      = val_main_v120 (F := Ideal) x0 x2 x3 x4 x5 x10 x11 x12 x13 (ix1 r) := by
  have h : val_main_v194 (F := Ideal) x0 x2 x3 x4 x5 x10 x11 x12 x13 (ix2 r (0 : Fin 4))
      = val_main_v193 (F := Ideal) x0 x2 x3 x4 x5 x10 x11 x12 x13 (ix2 r (0 : Fin 1)) := by
    unfold val_main_v194
    generalize val_main_v193 (F := Ideal) x0 x2 x3 x4 x5 x10 x11 x12 x13 = y₁
    generalize val_main_v190 (F := Ideal) x0 x2 x3 x4 x5 x10 x11 x12 x13 = y₂
    exact concatenate_pair_apply_left _ y₁ y₂ _ (ix2 r (0 : Fin 4)) rfl (ix2 r (0 : Fin 1))
      (fun b => match b with | ⟨0, _⟩ => rfl | ⟨1, _⟩ => rfl)
  rw [h, val_main_v193_apply]
  exact congrArg _ (funext fun a => Fin.ext (by match a with | ⟨0, _⟩ => rfl))

theorem margins_fixed (r : Fin 32768) (i : Fin 3) (o : Fin 4) (ho : o.val = 1 + i.val) :
    val_main_v194 (F := Ideal) x0 x2 x3 x4 x5 x10 x11 x12 x13 (ix2 r o)
      = val_main_v190 (F := Ideal) x0 x2 x3 x4 x5 x10 x11 x12 x13 (ix2 r i) := by
  unfold val_main_v194
  generalize val_main_v193 (F := Ideal) x0 x2 x3 x4 x5 x10 x11 x12 x13 = y₁
  generalize val_main_v190 (F := Ideal) x0 x2 x3 x4 x5 x10 x11 x12 x13 = y₂
  exact concatenate_pair_apply_right _ y₁ y₂ _ (ix2 r o) rfl rfl (ix2 r i)
    (fun b => match b with | ⟨0, _⟩ => fun _ => rfl | ⟨1, _⟩ => fun hb => absurd rfl hb)
    (by show i.val + 1 = o.val; omega)

/-! ## The result's three groups of columns -/

theorem result_control (r : Fin 32768) (c : Fin 2) (q : Fin 14) (hq : q.val = c.val) :
    val_main_v196 (F := Ideal) x0 x2 x3 x4 x5 x6 x7 x8 x9 x10 x11 x12 x13 (ix2 r q)
      = val_main_v22 (F := Ideal) x0 x4 x5 x6 x7 x8 x9 (ix2 r c) := by
  unfold val_main_v196
  generalize val_main_v22 (F := Ideal) x0 x4 x5 x6 x7 x8 x9 = y₁
  generalize val_main_v195 (F := Ideal) x0 x2 x3 = y₂
  generalize val_main_v194 (F := Ideal) x0 x2 x3 x4 x5 x10 x11 x12 x13 = y₃
  exact concatenate_apply_piece _ _ _ (ix2 r q) 0 (by show (0 : Nat) < 3; decide) S32768x2 y₁ rfl rfl 0 rfl (ix2 r c)
    (fun b => match b with | ⟨0, _⟩ => fun _ => rfl | ⟨1, _⟩ => fun hb => absurd rfl hb)
    (by show 0 + c.val = q.val; omega)

theorem result_coeff (r : Fin 32768) (c : Fin 8) (q : Fin 14) (hq : q.val = 2 + c.val) :
    val_main_v196 (F := Ideal) x0 x2 x3 x4 x5 x6 x7 x8 x9 x10 x11 x12 x13 (ix2 r q)
      = val_main_v195 (F := Ideal) x0 x2 x3 (ix2 r c) := by
  unfold val_main_v196
  generalize val_main_v22 (F := Ideal) x0 x4 x5 x6 x7 x8 x9 = y₁
  generalize val_main_v195 (F := Ideal) x0 x2 x3 = y₂
  generalize val_main_v194 (F := Ideal) x0 x2 x3 x4 x5 x10 x11 x12 x13 = y₃
  exact concatenate_apply_piece _ _ _ (ix2 r q) 1 (by show (1 : Nat) < 3; decide) S32768x8 y₂ rfl rfl 2 rfl (ix2 r c)
    (fun b => match b with | ⟨0, _⟩ => fun _ => rfl | ⟨1, _⟩ => fun hb => absurd rfl hb)
    (by show 2 + c.val = q.val; omega)

theorem result_margin (r : Fin 32768) (c : Fin 4) (q : Fin 14) (hq : q.val = 10 + c.val) :
    val_main_v196 (F := Ideal) x0 x2 x3 x4 x5 x6 x7 x8 x9 x10 x11 x12 x13 (ix2 r q)
      = val_main_v194 (F := Ideal) x0 x2 x3 x4 x5 x10 x11 x12 x13 (ix2 r c) := by
  unfold val_main_v196
  generalize val_main_v22 (F := Ideal) x0 x4 x5 x6 x7 x8 x9 = y₁
  generalize val_main_v195 (F := Ideal) x0 x2 x3 = y₂
  generalize val_main_v194 (F := Ideal) x0 x2 x3 x4 x5 x10 x11 x12 x13 = y₃
  exact concatenate_apply_piece _ _ _ (ix2 r q) 2 (by show (2 : Nat) < 3; decide) S32768x4 y₃ rfl rfl 10 rfl (ix2 r c)
    (fun b => match b with | ⟨0, _⟩ => fun _ => rfl | ⟨1, _⟩ => fun hb => absurd rfl hb)
    (by show 10 + c.val = q.val; omega)

/-! ## The reference computes the specification -/

/-- A steering-coefficient column of the result read back to the moving obstacle's pair. -/
theorem column_moving (r : Fin 32768) (k : Fin 2) (c : Fin 8) (q : Fin 14) (hq : q.val = 2 + c.val)
    (hc : c.val = 2 * (0 : Fin 4).val + k.val) :
    val_main_v196 (F := Ideal) x0 x2 x3 x4 x5 x6 x7 x8 x9 x10 x11 x12 x13 (ix2 r q)
      = val_main_v114 (F := Ideal) x0 x2 x3 (ix2 r k) :=
  (result_coeff x0 x2 x3 x4 x5 x6 x7 x8 x9 x10 x11 x12 x13 r c q hq).trans
    ((coeff_apply x0 x2 x3 r c 0 k hc).trans (coeff_moving x0 x2 x3 r k))

/-- A steering-coefficient column of the result read back to a fixed obstacle's pair. -/
theorem column_fixed (r : Fin 32768) (i : Fin 3) (k : Fin 2) (o : Fin 4) (c : Fin 8) (q : Fin 14)
    (hq : q.val = 2 + c.val) (hc : c.val = 2 * o.val + k.val) (ho : o.val = 1 + i.val) :
    val_main_v196 (F := Ideal) x0 x2 x3 x4 x5 x6 x7 x8 x9 x10 x11 x12 x13 (ix2 r q)
      = val_main_v179 (F := Ideal) x0 x2 x3 (ix3 r i k) :=
  (result_coeff x0 x2 x3 x4 x5 x6 x7 x8 x9 x10 x11 x12 x13 r c q hq).trans
    ((coeff_apply x0 x2 x3 r c o k hc).trans (coeff_fixed x0 x2 x3 r i k o ho))

/-- A margin column of the result read back to a fixed obstacle's margin. -/
theorem column_margin_fixed (r : Fin 32768) (i : Fin 3) (o : Fin 4) (q : Fin 14) (hq : q.val = 10 + o.val)
    (ho : o.val = 1 + i.val) :
    val_main_v196 (F := Ideal) x0 x2 x3 x4 x5 x6 x7 x8 x9 x10 x11 x12 x13 (ix2 r q)
      = val_main_v190 (F := Ideal) x0 x2 x3 x4 x5 x10 x11 x12 x13 (ix2 r i) :=
  (result_margin x0 x2 x3 x4 x5 x6 x7 x8 x9 x10 x11 x12 x13 r o q hq).trans
    (margins_fixed x0 x2 x3 x4 x5 x10 x11 x12 x13 r i o ho)

/-- The reference's result is the specification's: entry `(r, q)` is output `q` of row `r`. -/
theorem reference_eq :
    val_main_v196 (F := Ideal) x0 x2 x3 x4 x5 x6 x7 x8 x9 x10 x11 x12 x13
      = Cert.Controller.result x0 x2 x3 x4 x5 x6 x7 x8 x9 x10 x11 x12 x13 := by
  funext j
  obtain ⟨r, q, rfl⟩ : ∃ (r : Fin 32768) (q : Fin 14), j = ix2 r q := ⟨j 0, j 1, eq_ix2 j⟩
  match q with
  | ⟨0, _⟩ =>
    exact (result_control x0 x2 x3 x4 x5 x6 x7 x8 x9 x10 x11 x12 x13 r 0 _ rfl).trans
      (control_apply x0 x4 x5 x6 x7 x8 x9 r 0)
  | ⟨1, _⟩ =>
    exact (result_control x0 x2 x3 x4 x5 x6 x7 x8 x9 x10 x11 x12 x13 r 1 _ rfl).trans
      (control_apply x0 x4 x5 x6 x7 x8 x9 r 1)
  | ⟨2, _⟩ =>
    exact (column_moving x0 x2 x3 x4 x5 x6 x7 x8 x9 x10 x11 x12 x13 r 0 0 _ rfl rfl).trans
      ((pair_moving_fst x0 x2 x3 r).trans (steer1_moving x0 x2 x3 r))
  | ⟨3, _⟩ =>
    exact (column_moving x0 x2 x3 x4 x5 x6 x7 x8 x9 x10 x11 x12 x13 r 1 1 _ rfl rfl).trans
      ((pair_moving_snd x0 x2 x3 r).trans (steer2_moving x0 x2 x3 r))
  | ⟨4, _⟩ =>
    exact (column_fixed x0 x2 x3 x4 x5 x6 x7 x8 x9 x10 x11 x12 x13 r 0 0 1 2 _ rfl rfl rfl).trans
      ((pair_fixed_fst x0 x2 x3 r 0).trans (steer1_fixed x0 x2 x3 r 0))
  | ⟨5, _⟩ =>
    exact (column_fixed x0 x2 x3 x4 x5 x6 x7 x8 x9 x10 x11 x12 x13 r 0 1 1 3 _ rfl rfl rfl).trans
      ((pair_fixed_snd x0 x2 x3 r 0).trans (steer2_fixed x0 x2 x3 r 0))
  | ⟨6, _⟩ =>
    exact (column_fixed x0 x2 x3 x4 x5 x6 x7 x8 x9 x10 x11 x12 x13 r 1 0 2 4 _ rfl rfl rfl).trans
      ((pair_fixed_fst x0 x2 x3 r 1).trans (steer1_fixed x0 x2 x3 r 1))
  | ⟨7, _⟩ =>
    exact (column_fixed x0 x2 x3 x4 x5 x6 x7 x8 x9 x10 x11 x12 x13 r 1 1 2 5 _ rfl rfl rfl).trans
      ((pair_fixed_snd x0 x2 x3 r 1).trans (steer2_fixed x0 x2 x3 r 1))
  | ⟨8, _⟩ =>
    exact (column_fixed x0 x2 x3 x4 x5 x6 x7 x8 x9 x10 x11 x12 x13 r 2 0 3 6 _ rfl rfl rfl).trans
      ((pair_fixed_fst x0 x2 x3 r 2).trans (steer1_fixed x0 x2 x3 r 2))
  | ⟨9, _⟩ =>
    exact (column_fixed x0 x2 x3 x4 x5 x6 x7 x8 x9 x10 x11 x12 x13 r 2 1 3 7 _ rfl rfl rfl).trans
      ((pair_fixed_snd x0 x2 x3 r 2).trans (steer2_fixed x0 x2 x3 r 2))
  | ⟨10, _⟩ =>
    exact (result_margin x0 x2 x3 x4 x5 x6 x7 x8 x9 x10 x11 x12 x13 r 0 _ rfl).trans
      ((margins_moving x0 x2 x3 x4 x5 x10 x11 x12 x13 r).trans
        (margin_moving x0 x2 x3 x4 x5 x10 x11 x12 x13 r))
  | ⟨11, _⟩ =>
    exact (column_margin_fixed x0 x2 x3 x4 x5 x6 x7 x8 x9 x10 x11 x12 x13 r 0 1 _ rfl rfl).trans
      (margin_fixed x0 x2 x3 x4 x5 x10 x11 x12 x13 r 0)
  | ⟨12, _⟩ =>
    exact (column_margin_fixed x0 x2 x3 x4 x5 x6 x7 x8 x9 x10 x11 x12 x13 r 1 2 _ rfl rfl).trans
      (margin_fixed x0 x2 x3 x4 x5 x10 x11 x12 x13 r 1)
  | ⟨13, _⟩ =>
    exact (column_margin_fixed x0 x2 x3 x4 x5 x6 x7 x8 x9 x10 x11 x12 x13 r 2 3 _ rfl rfl).trans
      (margin_fixed x0 x2 x3 x4 x5 x10 x11 x12 x13 r 2)
  | ⟨n + 14, h⟩ => exact absurd h (by omega)

end Cert.ReferenceIdeal.RefValue

end
-- ==== Proof.lean ====
/-
  A controller network with barrier terms: the tiled kernel against the whole-array reference, on the extended reals.

  Both programs map a batch of 32768 rows of 20 inputs to 14 outputs per row. A row is de-normalised to a state;
  a shared hidden layer feeds a control head and a penalty head (four times a logistic); from the state come the
  heading and speed and the positions of one moving and three fixed obstacles, and for each obstacle the two
  steering coefficients of its squared-distance barrier's second derivative and a margin that mixes the drift
  term, the barrier's rate and the gap through the two penalties. Rows do not interact.

  The kernel handles 2048 rows per grid point. It casts the three large weight matrices to a shorter float format
  (the identity on the extended reals), transposes them inside the body, and computes the barrier terms on the
  transposed state so that each quantity is a row of 2048 scalars; it writes a negation as zero minus the value and
  applies the logistic as one operation. The reference works on whole arrays, column by column, with the three fixed
  obstacles as one array of three columns, a true negation, and the logistic spelt out as one over one plus the
  exponential of the negated argument, which is the logistic's definition.

  Both are proved equal, entry by entry, to one function of the argument arrays (Spec.lean): entry (r, q) is output q
  of row r. No input needs to be finite: the two programs apply the same operations in the same order to the same
  values, and the few identities between their spellings (zero minus a value is its negation; a product into a zero
  accumulator is the plain sum) hold on every extended real. The kernel's value is read block by block and the
  blocks cover the result array; the reference's value is read one operation at a time.
-/
import proofs.«137691_j87677462381133_2_alg».proof.Defs
import proofs.«137691_j87677462381133_2_alg».proof.Proof.Gen.Kernel
import proofs.«137691_j87677462381133_2_alg».proof.Proof.Gen.Kernel.Skeleton
import proofs.«137691_j87677462381133_2_alg».proof.Proof.Gen.Kernel.Launch
import proofs.«137691_j87677462381133_2_alg».proof.Proof.Gen.Kernel.Points
import proofs.«137691_j87677462381133_2_alg».proof.Proof.Gen.Kernel.Frame
import proofs.«137691_j87677462381133_2_alg».proof.Proof.Gen.KernelIdeal
import proofs.«137691_j87677462381133_2_alg».proof.Proof.Gen.KernelIdeal.Skeleton
import proofs.«137691_j87677462381133_2_alg».proof.Proof.Gen.KernelIdeal.Launch
import proofs.«137691_j87677462381133_2_alg».proof.Proof.Gen.KernelIdeal.Points
import proofs.«137691_j87677462381133_2_alg».proof.Proof.Gen.KernelIdeal.Frame
import proofs.«137691_j87677462381133_2_alg».proof.Proof.Gen.ReferenceIdeal
import proofs.«137691_j87677462381133_2_alg».proof.Proof.Gen.Pre_finite_inputs
import proofs.«137691_j87677462381133_2_alg».proof.Proof.Gen.KernelIdeal.Value
import proofs.«137691_j87677462381133_2_alg».proof.Proof.Gen.ReferenceIdeal.Run
import proofs.«137691_j87677462381133_2_alg».proof.Proof.Gen.ReferenceIdeal.Read
import proofs.«137691_j87677462381133_2_alg».proof.Proof.KernelResult
import proofs.«137691_j87677462381133_2_alg».proof.Proof.ReferenceResult
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten when it was read on the extended reals, so nothing is owed here. -/
theorem preserves : Cert.preserves_Kernel_KernelIdeal := trivial

/-- From memories that agree on the arguments both programs end with the result array at the same function of
    the arguments: entry (r, q) is output q of row r. -/
theorem algebraic : Cert.algebraic_KernelIdeal_ReferenceIdeal := by
  intro m ρ m' ρ' _ hagree
  refine ⟨fun c => Cert.KernelIdeal.ArrayValue.resultOf m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, _, h2, h3, h4, h5, h6, h7, h8, h9, h10, h11, h12, h13⟩ := hagree c
  rw [Cert.ReferenceIdeal.Read.val_main_v196_eq, Cert.ReferenceIdeal.RefValue.reference_eq,
    h0, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
